-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4x4096x4096 : Shape := ⟨3, ![4, 4096, 4096]⟩
abbrev S4x128x128 : Shape := ⟨3, ![4, 128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S4x4096x4096 .f32) (main_arg2 : FVec F S4x128x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S4x4096x4096 : Shape := ⟨3, ![4, 4096, 4096]⟩
abbrev S4x128x128 : Shape := ⟨3, ![4, 128, 128]⟩
abbrev S128 : Shape := ⟨1, ![128]⟩
abbrev S1x128 : Shape := ⟨2, ![1, 128]⟩
abbrev S1x512x4096 : Shape := ⟨3, ![1, 512, 4096]⟩
abbrev S512x128 : Shape := ⟨2, ![512, 128]⟩
abbrev S4x4096x128 : Shape := ⟨3, ![4, 4096, 128]⟩
abbrev S1x128x128 : Shape := ⟨3, ![1, 128, 128]⟩
abbrev S128x128 : Shape := ⟨2, ![128, 128]⟩
abbrev S1x4096x128 : Shape := ⟨3, ![1, 4096, 128]⟩
abbrev S512x4096 : Shape := ⟨2, ![512, 4096]⟩

abbrev nBuf : Space → Nat
  | .hbm => 6
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4x4096x4096, .f32⟩
  | .hbm, ⟨2, _⟩ => ⟨S4x128x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S4096x128, .f32⟩
  | .local _ .vmem, ⟨1, _⟩ => ⟨S1x512x4096, .f32⟩
  | .local _ .vmem, ⟨2, _⟩ => ⟨S1x512x4096, .f32⟩
  | .local _ .vmem, ⟨3, _⟩ => ⟨S4x128x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S4x4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v16 : Index := Scalar.indexCast arg1
  let c0_11 : Index := 0#32
  let c0_12 : Index := 0#32
  ![v16.toNat, 0, 0]
def k0_off2 (i : grid0.Coords) : Fin 3 → Nat :=
  let arg1 : BitVec 32 := BitVec.ofNat 32 (i 1).val
  let v22 : Index := Scalar.indexCast arg1
  let c0_16 : Index := 0#32
  let c0_17 : Index := 0#32
  ![v22.toNat, 0, 0]
def k0_off3 (i : grid0.Coords) : Fin 3 → Nat :=
  let arg1 : BitVec 32 := BitVec.ofNat 32 (i 1).val
  let v6 : Index := Scalar.indexCast arg1
  let c0 : Index := 0#32
  let c0_3 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  h_S1x128x128 : 0 < S1x128x128.numel
  shapeCasts_S1x128x128_S128x128 : S1x128x128.ShapeCasts S128x128
  inb_S4096x128_S4096x128_0_0 : ∀ a, (![0, 0] : Fin 2 → Nat) a + S4096x128.size a ≤ S4096x128.size a
  h_S4096x128 : 0 < S4096x128.numel
  shapeCasts_S4096x128_S1x4096x128 : S4096x128.ShapeCasts S1x4096x128
  h_S1x4096x128 : 0 < S1x4096x128.numel
  shapeCasts_S1x4096x128_S1x4096x128 : S1x4096x128.ShapeCasts S1x4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S1x4096x128_S4096x128 : S1x4096x128.ShapeCasts S4096x128
  shapeCasts_S512x128_S512x128 : S512x128.ShapeCasts S512x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  hrank0 : 0 < grid0.rank
  k0_off1_inb : ∀ i : grid0.Coords, ∀ (k0_h1 : k0_cond1 i = 1#1), ∀ a, (k0_off1 i) a + S1x128x128.size a ≤ S4x128x128.size a
  k0_off2_inb : ∀ i : grid0.Coords, ∀ (k0_h1 : k0_cond1 i = 1#1), ∀ a, (k0_off2 i) a + S1x4096x128.size a ≤ S4x4096x128.size a
  k0_off3_inb : ∀ i : grid0.Coords, ∀ a, (k0_off3 i) a + S1x4096x128.size a ≤ S4x4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S4x4096x4096.size a
  hwx0_1 : ∀ i : grid0.Coords, EltTy.bits .f32 = 32 ∨ (Rect.block (s := S4x4096x4096) S1x512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .f32 = 32 ∨ (Rect.block (s := S4x128x128) S4x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4x4096x4096 : Shape := ⟨3, ![4, 4096, 4096]⟩
abbrev S4x128x128 : Shape := ⟨3, ![4, 128, 128]⟩
abbrev S128 : Shape := ⟨1, ![128]⟩
abbrev S1x128x128 : Shape := ⟨3, ![1, 128, 128]⟩
abbrev S128x128 : Shape := ⟨2, ![128, 128]⟩
abbrev S1x4096x4096 : Shape := ⟨3, ![1, 4096, 4096]⟩
abbrev S4096x4096 : Shape := ⟨2, ![4096, 4096]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4x4096x4096, .f32⟩
  | .hbm, ⟨2, _⟩ => ⟨S4x128x128, .f32⟩
  | .hbm, ⟨3, _⟩ => ⟨S128, .f32⟩
  | .hbm, ⟨4, _⟩ => ⟨S1x128x128, .f32⟩
  | .hbm, ⟨5, _⟩ => ⟨S128x128, .f32⟩
  | .hbm, ⟨6, _⟩ => ⟨S4096x128, .f32⟩
  | .hbm, ⟨7, _⟩ => ⟨S1x4096x4096, .f32⟩
  | .hbm, ⟨8, _⟩ => ⟨S4096x4096, .f32⟩
  | .hbm, ⟨9, _⟩ => ⟨S4096x128, .f32⟩
  | .hbm, ⟨10, _⟩ => ⟨S1x128x128, .f32⟩
  | .hbm, ⟨11, _⟩ => ⟨S128x128, .f32⟩
  | .hbm, ⟨12, _⟩ => ⟨S4096x128, .f32⟩
  | .hbm, ⟨13, _⟩ => ⟨S1x4096x4096, .f32⟩
  | .hbm, ⟨14, _⟩ => ⟨S4096x4096, .f32⟩
  | .hbm, ⟨15, _⟩ => ⟨S4096x128, .f32⟩
  | .hbm, ⟨16, _⟩ => ⟨S1x128x128, .f32⟩
  | .hbm, ⟨17, _⟩ => ⟨S128x128, .f32⟩
  | .hbm, ⟨18, _⟩ => ⟨S4096x128, .f32⟩
  | .hbm, ⟨19, _⟩ => ⟨S1x4096x4096, .f32⟩
  | .hbm, ⟨20, _⟩ => ⟨S4096x4096, .f32⟩
  | .hbm, ⟨21, _⟩ => ⟨S4096x128, .f32⟩
  | .hbm, ⟨22, _⟩ => ⟨S1x128x128, .f32⟩
  | .hbm, ⟨23, _⟩ => ⟨S128x128, .f32⟩
  | .hbm, ⟨24, _⟩ => ⟨S4096x128, .f32⟩
  | .hbm, ⟨25, _⟩ => ⟨S1x4096x4096, .f32⟩
  | .hbm, ⟨26, _⟩ => ⟨S4096x4096, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S1x128, .f32⟩
  | .hbm, ⟨32, _⟩ => ⟨S4096x128, .f32⟩
  | .hbm, ⟨33, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]

class Facts₀ : Prop where
  slices_S4x128x128_S1x128x128_0_0_0 : S4x128x128.Slices ![0, 0, 0] S1x128x128
  shapeCasts_S1x128x128_S128x128 : S1x128x128.ShapeCasts S128x128
  slices_S4x4096x4096_S1x4096x4096_0_0_0 : S4x4096x4096.Slices ![0, 0, 0] S1x4096x4096
  shapeCasts_S1x4096x4096_S4096x4096 : S1x4096x4096.ShapeCasts S4096x4096
  slices_S4x128x128_S1x128x128_1_0_0 : S4x128x128.Slices ![1, 0, 0] S1x128x128
  slices_S4x4096x4096_S1x4096x4096_1_0_0 : S4x4096x4096.Slices ![1, 0, 0] S1x4096x4096
  slices_S4x128x128_S1x128x128_2_0_0 : S4x128x128.Slices ![2, 0, 0] S1x128x128
  slices_S4x4096x4096_S1x4096x4096_2_0_0 : S4x4096x4096.Slices ![2, 0, 0] S1x4096x4096
  slices_S4x128x128_S1x128x128_3_0_0 : S4x128x128.Slices ![3, 0, 0] S1x128x128
  slices_S4x4096x4096_S1x4096x4096_3_0_0 : S4x4096x4096.Slices ![3, 0, 0] S1x4096x4096
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KBase.lean ====
/-
  What one run of the kernel body leaves behind, as functions of what it was handed.

  The body runs at a grid point (r, k): r the row tile (8 of them), k the degree (4 of them). It keeps the four
  supports S_k = x · w_k in a scratch of shape [4, 4096, 128], one slab per degree. When r = 0 it computes S_k and stores
  it into slab k; at every point it then reads slab k back. When k = 0 it resets the output tile to the bias broadcast
  over the rows. Finally it adds (adjacency tile) · S_k to the output tile.

  So after the body:
  * the slab it read is the product it just stored (r = 0), or whatever slab k of the scratch held (r > 0);
  * the scratch is as before with slab k overwritten (r = 0), or unchanged (r > 0);
  * the output tile is (bias broadcast, or what the tile held) + (adjacency tile) · (the slab read).
  These are `slabRead`, `scratchAfter`, `tileAfter` below, stated over the two branch conditions.
-/
import proofs.«156189_g32186484916413_cont_8to1_b_1688_12_alg».proof.Proof.Gen.Kernel.Frame
import proofs.«156189_g32186484916413_cont_8to1_b_1688_12_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken: the row-tile coordinate is zero. -/
abbrev cndR (i : grid0.Coords) : Prop := k0_cond1 i = 1#1
/-- The second branch is taken: the degree coordinate is zero. -/
abbrev cndK (i : grid0.Coords) : Prop := (Scalar.cmpi .ne (Scalar.extui (Scalar.cmpi .eq (BitVec.ofNat 32 (i 1).val) 0#32)) 0#32) = 1#1

/-- The support the body computes when the row tile is zero: features times the degree's weight slab. -/
def suppNew (i : grid0.Coords) (h : cndR i) (x0 : Vec F S4096x128 .f32) (x2 : Vec F S4x128x128 .f32) : FVec F S1x4096x128 .f32 :=
  k0_pay1 (View.ld x2 (Rect.unit (s := S4x128x128) (k0_off1 i) S1x128x128.size (k0_off1_inb i h))) x0

/-- The slab the body reads back: the support just stored, or slab `k` of what the scratch held. -/
def slabRead (i : grid0.Coords) (x0 : Vec F S4096x128 .f32) (x2 : Vec F S4x128x128 .f32) (d7 : Vec F S4x4096x128 .f32) : FVec F S1x4096x128 .f32 :=
  if h : cndR i then suppNew i h x0 x2
  else View.ld d7 (Rect.unit (s := S4x4096x128) (k0_off3 i) S1x4096x128.size (k0_off3_inb i))

/-- The scratch after the body: slab `k` overwritten by the new support when the row tile is zero, else unchanged. -/
def scratchAfter (i : grid0.Coords) (arg7 : Memref sig .tc .vmem S4x4096x128 .f32) (harg7 : arg7.IsWhole)
    (x0 : Vec F S4096x128 .f32) (x2 : Vec F S4x128x128 .f32) (d7 : Vec F S4x4096x128 .f32) : Vec F S4x4096x128 .f32 :=
  if h : cndR i then
    arg7.view.read (Elt F) (arg7.view.writes (Elt F) (harg7.unread d7)
      [⟨Rect.unit (s := S4x4096x128) (k0_off2 i) S1x4096x128.size (k0_off2_inb i h), suppNew i h x0 x2⟩])
  else d7

/-- The output tile after the body: (the bias broadcast when the degree is zero, else what the tile held) plus
    the adjacency tile times the slab read. -/
def tileAfter (i : grid0.Coords) (x0 : Vec F S4096x128 .f32) (x1 : Vec F S1x512x4096 .f32) (x2 : Vec F S4x128x128 .f32)
    (x3 : Vec F S1x128 .f32) (d6 : Vec F S512x128 .f32) (d7 : Vec F S4x4096x128 .f32) : FVec F S512x128 .f32 :=
  k0_pay3 (slabRead i x0 x2 d7) (if cndK i then k0_pay2 x3 else d6) x1

/-- A load through a unit-stride rectangle of what ONE store through the same rectangle left reads that store's
    payload, whatever the buffer held before (the offsets of the two given by an equation, so that two spellings of
    one offset chain are accepted). -/
theorem readCov_unit_same {sig' : RefSig} {κ : Kind} {sp : Space} {s : Shape} {e : EltTy} {Val : EltTy → Type} [∀ e, Nonempty (Val e)]
    (v : View sig' κ sp s e) {off off' size : Fin s.rank → ℕ} (inb : ∀ a, off a + size a ≤ s.size a)
    (inb' : ∀ a, off' a + size a ≤ s.size a) (W : (Rect.unit off size inb).shape.Idx → Val e) (h : off = off') :
    v.readCov [(⟨Rect.unit off size inb, W⟩ : View.Piece Val s e)] (Rect.unit off' size inb').toLoadRect = W := by
  subst h
  funext x
  exact View.read_writes_cons_emb v _ (Rect.unit off size inb) W [] x

theorem hz2 : (![0, 0] : Fin 2 → Nat) = fun _ => 0 := funext fun a => by fin_cases a <;> rfl
theorem hz3 : (![0, 0, 0] : Fin 3 → Nat) = fun _ => 0 := funext fun a => by fin_cases a <;> rfl

/-- The body's triple, as every case states it: the inputs' staging buffers at their blocks, the output tile's
    and the scratch at given contents; they come back with the inputs untouched, the tile at `tileAfter` and the scratch
    at `scratchAfter`. -/
def BodyTriple (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) : Prop :=
  ∀ (x0 : Vec F S4096x128 .f32) (x1 : Vec F S1x512x4096 .f32) (x2 : Vec F S4x128x128 .f32) (x3 : Vec F S1x128 .f32)
    (d6 : Vec F S512x128 .f32) (d7 : Vec F S4x4096x128 .f32) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (tileAfter i x0 x1 x2 x3 d6 d7) ∗ owns (c : Thread nD τ) arg7 fullShare (scratchAfter i arg7 harg7 x0 x2 d7)) -∗ K ⟨⟩))
      ⊢ wp frame (wpE (defs₀ (F := F)) Variants.none c none) E (cc0__cheby_kernel i arg2 harg2 arg3 harg3 arg4 harg4 arg5 harg5 arg6 harg6 arg7 harg7) K

end Cert.Kernel.Body

end
-- ==== Proof.KBodyA.lean ====
/-
  The body's triple when the row tile is zero and the degree is zero: the support is computed and stored, the tile is reset to the bias.
  The body is run symbolically through its loads, stores and the two decided branches; what is left is to read the
  stored pieces back: a store through the whole tile leaves its payload, and a load of a slab just stored reads
  that store's payload.
-/
import proofs.«156189_g32186484916413_cont_8to1_b_1688_12_alg».proof.Proof.KBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyA (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : cndR i) (hc1 : cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_pos hc0, if_pos hc1]
    unfold suppNew
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · refine (readCov_unit_same _ _ _ _ (by rfl)).trans ?_
      simp only [View.readAt_eq_ld, harg2.read_unread, harg4.read_unread, View.ld_unit_zero (S := S4096x128) hz2]
      try rfl
    · rw [View.readCov_unit_zero (S := S512x128) _ hz2]
      simp only [View.readAt_eq_ld, harg5.read_unread, View.ld_unit_zero (S := S1x128) hz2]
      try rfl
    · simp only [View.readAt_eq_ld, harg3.read_unread, View.ld_unit_zero (S := S1x512x4096) hz3]
      try rfl
  iexists _; isplitr; swap; · iexact HS0
  ipureintro
  sl_unfold_words
  unfold scratchAfter
  rw [dif_pos hc0]
  unfold suppNew
  simp only [View.readAt_eq_ld, harg2.read_unread, harg4.read_unread, View.ld_unit_zero (S := S4096x128) hz2]
  try rfl

end Cert.Kernel.Body

end
-- ==== Proof.KBodyB.lean ====
/-
  The body's triple when the row tile is zero and the degree is not: the support is computed and stored, the tile accumulates.
  The body is run symbolically through its loads, stores and the two decided branches; what is left is to read the
  stored pieces back: a store through the whole tile leaves its payload, and a load of a slab just stored reads
  that store's payload.
-/
import proofs.«156189_g32186484916413_cont_8to1_b_1688_12_alg».proof.Proof.KBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyB (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : cndR i) (hc1 : ¬cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_pos hc0, if_neg hc1]
    unfold suppNew
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · refine (readCov_unit_same _ _ _ _ (by rfl)).trans ?_
      simp only [View.readAt_eq_ld, harg2.read_unread, harg4.read_unread, View.ld_unit_zero (S := S4096x128) hz2]
      try rfl
    · simp only [View.readAt_eq_ld, harg6.read_unread, View.ld_unit_zero (S := S512x128) hz2]
      try rfl
    · simp only [View.readAt_eq_ld, harg3.read_unread, View.ld_unit_zero (S := S1x512x4096) hz3]
      try rfl
  iexists _; isplitr; swap; · iexact HS0
  ipureintro
  sl_unfold_words
  unfold scratchAfter
  rw [dif_pos hc0]
  unfold suppNew
  simp only [View.readAt_eq_ld, harg2.read_unread, harg4.read_unread, View.ld_unit_zero (S := S4096x128) hz2]
  try rfl

end Cert.Kernel.Body

end
-- ==== Proof.KBodyC.lean ====
/-
  The body's triple when the row tile is not zero and the degree is zero: the scratch is only read, the tile is reset to the bias.
  The body is run symbolically through its loads, stores and the two decided branches; what is left is to read the
  stored pieces back: a store through the whole tile leaves its payload, and a load of a slab just stored reads
  that store's payload.
-/
import proofs.«156189_g32186484916413_cont_8to1_b_1688_12_alg».proof.Proof.KBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyC (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : ¬cndR i) (hc1 : cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_neg hc0, if_pos hc1]
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · simp only [View.readAt_eq_ld, harg7.read_unread]
      try rfl
    · rw [View.readCov_unit_zero (S := S512x128) _ hz2]
      simp only [View.readAt_eq_ld, harg5.read_unread, View.ld_unit_zero (S := S1x128) hz2]
      try rfl
    · simp only [View.readAt_eq_ld, harg3.read_unread, View.ld_unit_zero (S := S1x512x4096) hz3]
      try rfl
  iexists _; isplitr; swap; · iexact HS0
  ipureintro
  unfold scratchAfter
  rw [dif_neg hc0]
  exact harg7.read_unread _

end Cert.Kernel.Body

end
-- ==== Proof.KBodyD.lean ====
/-
  The body's triple when neither coordinate is zero: the scratch is only read, the tile accumulates.
  The body is run symbolically through its loads, stores and the two decided branches; what is left is to read the
  stored pieces back: a store through the whole tile leaves its payload, and a load of a slab just stored reads
  that store's payload.
-/
import proofs.«156189_g32186484916413_cont_8to1_b_1688_12_alg».proof.Proof.KBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyD (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : ¬cndR i) (hc1 : ¬cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_neg hc0, if_neg hc1]
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · simp only [View.readAt_eq_ld, harg7.read_unread]
      try rfl
    · simp only [View.readAt_eq_ld, harg6.read_unread, View.ld_unit_zero (S := S512x128) hz2]
      try rfl
    · simp only [View.readAt_eq_ld, harg3.read_unread, View.ld_unit_zero (S := S1x512x4096) hz3]
      try rfl
  iexists _; isplitr; swap; · iexact HS0
  ipureintro
  unfold scratchAfter
  rw [dif_neg hc0]
  exact harg7.read_unread _

end Cert.Kernel.Body

end
-- ==== Proof.KBody.lean ====
/-
  The body's triple at any grid point: whichever way the two branches go, one of the four cases applies.
-/
import proofs.«156189_g32186484916413_cont_8to1_b_1688_12_alg».proof.Proof.KBodyA
import proofs.«156189_g32186484916413_cont_8to1_b_1688_12_alg».proof.Proof.KBodyB
import proofs.«156189_g32186484916413_cont_8to1_b_1688_12_alg».proof.Proof.KBodyC
import proofs.«156189_g32186484916413_cont_8to1_b_1688_12_alg».proof.Proof.KBodyD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) :
    BodyTriple (F := F) c i arg2 harg2 arg3 harg3 arg4 harg4 arg5 harg5 arg6 harg6 arg7 harg7 := by
  by_cases hc0 : cndR i
  · by_cases hc1 : cndK i
    · exact bodyA c i arg2 harg2 arg3 harg3 arg4 harg4 arg5 harg5 arg6 harg6 arg7 harg7 hc0 hc1
    · exact bodyB c i arg2 harg2 arg3 harg3 arg4 harg4 arg5 harg5 arg6 harg6 arg7 harg7 hc0 hc1
  · by_cases hc1 : cndK i
    · exact bodyC c i arg2 harg2 arg3 harg3 arg4 harg4 arg5 harg5 arg6 harg6 arg7 harg7 hc0 hc1
    · exact bodyD c i arg2 harg2 arg3 harg3 arg4 harg4 arg5 harg5 arg6 harg6 arg7 harg7 hc0 hc1

end Cert.Kernel.Body

end
-- ==== Proof.KData.lean ====
/-
  The proof data of the pipeline and its body obligation, hence the run of @main and the frame.

  The grid is 8 row tiles by 4 degrees, walked with the degree fastest: point t is (r, k) = (t / 4, t % 4). The first
  branch of the body is taken exactly at the points t < 4 (r = 0) and the second exactly at t % 4 = 0 (k = 0); the three
  offset chains of the body all come to the slab (k, 0, 0).

  The scratch carries the supports between points. The invariant before point t says: for every degree k < min(t, 4),
  slab k of the scratch holds S_k, the support the body computed at point k. Point t < 4 stores slab t and leaves the
  slabs below it alone (a store through a rectangle changes nothing outside it), so the invariant moves from t to t + 1;
  a later point only reads. Either way the slab the body reads at point t is S_(t % 4).

  The output tile is carried over the four degrees of one row tile: at k = 0 it is reset to the bias broadcast over the
  rows, and every point adds (adjacency tile) · S_k. `tileAt` is that chain, by recursion on the point. The tile is
  written back after k = 3 and its staging buffer is fresh at the next point, which resets it.
-/
import proofs.«156189_g32186484916413_cont_8to1_b_1688_12_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the offsets over the grid -/

theorem hcndR : ∀ t : Fin cfg0.N, cndR (grid0.coords t) ↔ t.val < 4 :=
  (by decide +kernel : ∀ t : Fin grid0.N, cndR (grid0.coords t) ↔ t.val < 4)
theorem hcndK : ∀ t : Fin cfg0.N, cndK (grid0.coords t) ↔ t.val % 4 = 0 :=
  (by decide +kernel : ∀ t : Fin grid0.N, cndK (grid0.coords t) ↔ t.val % 4 = 0)
theorem hoff1 : ∀ t : Fin cfg0.N, k0_off1 (grid0.coords t) = ![t.val % 4, 0, 0] :=
  (by decide +kernel : ∀ t : Fin grid0.N, k0_off1 (grid0.coords t) = ![t.val % 4, 0, 0])
theorem hoff2 : ∀ t : Fin cfg0.N, k0_off2 (grid0.coords t) = ![t.val % 4, 0, 0] :=
  (by decide +kernel : ∀ t : Fin grid0.N, k0_off2 (grid0.coords t) = ![t.val % 4, 0, 0])
theorem hoff3 : ∀ t : Fin cfg0.N, k0_off3 (grid0.coords t) = ![t.val % 4, 0, 0] :=
  (by decide +kernel : ∀ t : Fin grid0.N, k0_off3 (grid0.coords t) = ![t.val % 4, 0, 0])

/-! ## The staging memrefs the pipeline passes, and the scratch -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
/-- The scratch: a whole scoped buffer of the kernel's own. -/
abbrev scM : Memref sig .tc .vmem S4x4096x128 .f32 := Memref.whole cc0_scratch0

/-- What the launch hands the region besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The supports, and the scratch invariant -/

/-- Point `k` of the grid, for a degree `k < 4`: row tile 0, degree `k`. -/
def ptOf (k : ℕ) (hk : k < 4) : Fin cfg0.N := ⟨k, by rw [show cfg0.N = 32 from N_0]; omega⟩

/-- The support of degree `k`: what the body computes, and stores into slab `k`, at point `k`. -/
def suppAt (c : Dev nD) (k : ℕ) (hk : k < 4) : FVec F S1x4096x128 .f32 :=
  suppNew (grid0.coords (ptOf k hk)) ((hcndR (ptOf k hk)).mpr hk) (iblk m c 0 (ptOf k hk)) (iblk m c 2 (ptOf k hk))

theorem suppAt_congr (c : Dev nD) (k k' : ℕ) (hk : k < 4) (hk' : k' < 4) (e : k = k') : suppAt m c k hk = suppAt m c k' hk' := by
  subst e; rfl

/-- At a point of the first row tile the support the body computes is the support of its degree. -/
theorem suppNew_eq_suppAt (c : Dev nD) (t : Fin cfg0.N) (h : t.val < 4) :
    suppNew (grid0.coords t) ((hcndR t).mpr h) (iblk m c 0 t) (iblk m c 2 t) = suppAt m c t.val h := by
  obtain ⟨n, hn⟩ := t
  rfl

/-- Before point `n`: every slab of a degree below `min n 4` holds that degree's support. -/
def ScrInv (c : Dev nD) (n : ℕ) (d7 : Vec F S4x4096x128 .f32) : Prop :=
  ∀ (k : ℕ) (hk : k < 4), k < n → ∀ (inb : ∀ a, (![k, 0, 0] : Fin 3 → ℕ) a + S1x4096x128.size a ≤ S4x4096x128.size a),
    View.ld d7 (Rect.unit (s := S4x4096x128) ![k, 0, 0] S1x4096x128.size inb) = suppAt m c k hk

/-- A load through a unit-stride rectangle depends on the offsets' values only. -/
theorem ld_unit_congr {S : Shape} {e : EltTy} {Val : EltTy → Type} (X : S.Idx → Val e) {off off' size : Fin S.rank → ℕ}
    (inb : ∀ a, off a + size a ≤ S.size a) (h : off = off') :
    View.ld X (Rect.unit off size inb) = View.ld X (Rect.unit off' size (h ▸ inb)) := by
  subst h; rfl

/-- The slab the body reads at point `t` is the support of degree `t % 4`: just stored (first row tile), or kept by
    the invariant (later row tiles). -/
theorem slabRead_eq (c : Dev nD) (t : Fin cfg0.N) (d7 : Vec F S4x4096x128 .f32) (hinv : ScrInv m c t.val d7) :
    slabRead (grid0.coords t) (iblk m c 0 t) (iblk m c 2 t) d7 = suppAt m c (t.val % 4) (Nat.mod_lt _ (by decide)) := by
  unfold slabRead
  by_cases h : t.val < 4
  · rw [dif_pos ((hcndR t).mpr h)]
    exact (suppNew_eq_suppAt m c t h).trans (suppAt_congr m c _ _ _ _ (Nat.mod_eq_of_lt h).symm)
  · rw [dif_neg (fun hc => h ((hcndR t).mp hc))]
    exact (ld_unit_congr d7 _ (hoff3 t)).trans (hinv (t.val % 4) (Nat.mod_lt _ (by decide)) (by omega) _)

/-- The invariant moves from point `t` to point `t + 1`. -/
theorem scrInv_step (c : Dev nD) (t : Fin cfg0.N) (d7 : Vec F S4x4096x128 .f32) (hinv : ScrInv m c t.val d7) :
    ScrInv m c (t.val + 1) (scratchAfter (grid0.coords t) scM (Memref.isWhole_whole _) (iblk m c 0 t) (iblk m c 2 t) d7) := by
  unfold scratchAfter
  by_cases h : t.val < 4
  · rw [dif_pos ((hcndR t).mpr h)]
    have e2 : k0_off2 (grid0.coords t) = ![t.val, 0, 0] := by rw [hoff2 t, Nat.mod_eq_of_lt h]
    intro k hk hlt inb
    funext y
    by_cases hkt : k = t.val
    · subst hkt
      refine (View.read_writes_cons_unit_of_mem scM.view _ (k0_off2_inb _ ((hcndR t).mpr h)) _ [] _ y e2 (fun a => ?_)).trans ?_
      · show (![t.val, 0, 0] : Fin 3 → ℕ) a + 1 * (y a).val = (![t.val, 0, 0] : Fin 3 → ℕ) a + (y a).val
        rw [Nat.one_mul]
      · exact congrFun (suppNew_eq_suppAt m c t h) y
    · have hlt' : k < t.val := by omega
      refine (View.read_writes_cons_unit_of_not_mem scM.view _ (k0_off2_inb _ ((hcndR t).mpr h)) _ [] _ e2 0 (Or.inl ?_)).trans ?_
      · show k + 1 * (y 0).val < t.val
        have h1 : (y 0).val < 1 := (y 0).isLt
        omega
      · rw [View.writes_nil]
        show View.read (Elt F) scM.view ((Memref.isWhole_whole cc0_scratch0).unread d7) _ = _
        rw [(Memref.isWhole_whole cc0_scratch0).read_unread]
        exact congrFun (hinv k hk hlt' inb) y
  · rw [dif_neg (fun hc => h ((hcndR t).mp hc))]
    intro k hk hlt inb
    exact hinv k hk (by omega) inb

/-! ## The output tile, point by point -/

/-- The output tile after point `n`: reset to the bias at degree 0, plus (adjacency tile) · (support) at every point. -/
def tileAt (c : Dev nD) : (n : ℕ) → n < cfg0.N → FVec F S512x128 .f32
  | 0, h => k0_pay3 (suppAt m c 0 (by decide)) (k0_pay2 (iblk m c 3 ⟨0, h⟩)) (iblk m c 1 ⟨0, h⟩)
  | n + 1, h => k0_pay3 (suppAt m c ((n + 1) % 4) (Nat.mod_lt _ (by decide)))
      (if (n + 1) % 4 = 0 then k0_pay2 (iblk m c 3 ⟨n + 1, h⟩) else tileAt c n (Nat.lt_of_succ_lt h)) (iblk m c 1 ⟨n + 1, h⟩)

/-! ## The pipeline's proof data -/

/-- The arrays as the region finds them; after the body each input's buffer at its block and the output tile at
    `tileAt`; the invariant: the scratch at some contents satisfying `ScrInv`, and the generator register at some state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t.val t.isLt
  Φ t := iprop(∃ d7, ⌜ScrInv m c t.val d7⌝ ∗ owns (c : Thread nD τ) scM fullShare d7 ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tileAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later point of the same row tile the output's staging buffer holds what the point before left. -/
theorem before4_kept (c : Dev nD) (n : ℕ) (hn : n + 1 < cfg0.N) (h0 : (n + 1) % 4 ≠ 0) (d) :
    (dats m 0 c).before 4 ⟨n + 1, hn⟩ d = tileAt m c n (Nat.lt_of_succ_lt hn) := by
  have hfl : (cfg0.win 4).flush ⟨(⟨n + 1, hn⟩ : Fin cfg0.N).val - 1, Nat.lt_of_le_of_lt (Nat.sub_le _ _) hn⟩ = false :=
    Bool.eq_false_iff.mpr fun hf => by
      have := (flush0_4 _).mp hf
      dsimp only at this
      omega
  rw [(dats m 0 c).before_out_kept 4 rfl ⟨n + 1, hn⟩ (Nat.succ_ne_zero n) hfl (fun _ => rfl) (fun _ _ => rfl) d]
  exact after4 m c _

/-- The output tile the body leaves at point `t` is `tileAt`. -/
theorem tile_step (c : Dev nD) (t : Fin cfg0.N) (d4) (d7 : Vec F S4x4096x128 .f32) (hinv : ScrInv m c t.val d7) :
    tileAfter (grid0.coords t) (iblk m c 0 t) (iblk m c 1 t) (iblk m c 2 t) (iblk m c 3 t) ((dats m 0 c).before 4 t d4) d7
      = tileAt m c t.val t.isLt := by
  unfold tileAfter
  rw [slabRead_eq m c t d7 hinv]
  obtain ⟨n, hn⟩ := t
  cases n with
  | zero =>
    rw [if_pos ((hcndK ⟨0, hn⟩).mpr rfl)]
    rfl
  | succ n =>
    by_cases h0 : (n + 1) % 4 = 0
    · rw [if_pos ((hcndK ⟨n + 1, hn⟩).mpr h0)]
      show _ = k0_pay3 _ (if (n + 1) % 4 = 0 then _ else _) _
      rw [if_pos h0]
    · rw [if_neg (fun hc => h0 ((hcndK ⟨n + 1, hn⟩).mp hc)), before4_kept m c n hn h0 d4]
      show _ = k0_pay3 _ (if (n + 1) % 4 = 0 then _ else _) _
      rw [if_neg h0]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks, the scratch satisfies the invariant; the body's
    triple applies; the tile it leaves is `tileAt` and the scratch it leaves satisfies the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.castSucc = iprop(∃ d7, ⌜ScrInv m c t.val d7⌝ ∗ owns (c : Thread nD τ) scM fullShare d7 ∗ (∃ r, prngReg c r)) from rfl,
    show (dats m 0 c).Φ t.succ = iprop(∃ d7, ⌜ScrInv m c (t.val + 1) d7⌝ ∗ owns (c : Thread nD τ) scM fullShare d7 ∗ (∃ r, prngReg c r)) from rfl]
  iintro ⟨⟨%d7, %hinv, HS0, Hg⟩, Ho, ⟨%d0, H0⟩, ⟨%d1, H1⟩, ⟨%d2, H2⟩, ⟨%d3, H3⟩, ⟨%d4, H4⟩⟩
  rw [← tile_step m c t d4 d7 hinv]
  iapply (body c (grid0.coords t) (ms0 t) (hs0 t) (ms1 t) (hs1 t) (ms2 t) (hs2 t) (ms3 t) (hs3 t) (ms4 t) (hs4 t) scM (Memref.isWhole_whole _)
    (iblk m c 0 t) (iblk m c 1 t) (iblk m c 2 t) (iblk m c 3 t) ((dats m 0 c).before 4 t d4) d7 Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  isplitl [HS0 Hg]
  · iexists _
    isplitr
    · ipureintro; exact scrInv_step m c t d7 hinv
    isplitl [HS0]
    · iexact HS0
    iexact Hg
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-- What the launch hands the region is the invariant before the first point: no slab is promised yet. -/
theorem hin (c : Dev nD) : Pipeline.ΦA spec0 c ⊢ (dats m 0 c).Φ 0 := by
  rw [show (dats m 0 c).Φ 0 = iprop(∃ d7, ⌜ScrInv m c 0 d7⌝ ∗ owns (c : Thread nD τ) scM fullShare d7 ∗ (∃ r, prngReg c r)) from rfl, PhiA_eq]
  iintro ⟨⟨%d, HS0⟩, Hg⟩
  iexists d
  isplitr
  · ipureintro; intro k hk hlt; exact absurd hlt (Nat.not_lt_zero k)
  isplitl [HS0]
  · iexact HS0
  iexact Hg

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = iprop(∃ d7, ⌜ScrInv m c (Fin.last cfg0.N).val d7⌝ ∗ owns (c : Thread nD τ) scM fullShare d7 ∗ (∃ r, prngReg c r)) from rfl, PhiA_eq]
  iintro ⟨%d, %h, HS0, Hg⟩
  isplitl [HS0]
  · iexists _; iexact HS0
  iexact Hg

/-! ## The run and the frame -/

set_option backward.isDefEq.respectTransparency.types false in
/-- Every weakly fair execution of @main terminates; every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IBase.lean ====
/-
  What one run of the kernel body leaves behind, as functions of what it was handed.

  The body runs at a grid point (r, k): r the row tile (8 of them), k the degree (4 of them). It keeps the four
  supports S_k = x · w_k in a scratch of shape [4, 4096, 128], one slab per degree. When r = 0 it computes S_k and stores
  it into slab k; at every point it then reads slab k back. When k = 0 it resets the output tile to the bias broadcast
  over the rows. Finally it adds (adjacency tile) · S_k to the output tile.

  So after the body:
  * the slab it read is the product it just stored (r = 0), or whatever slab k of the scratch held (r > 0);
  * the scratch is as before with slab k overwritten (r = 0), or unchanged (r > 0);
  * the output tile is (bias broadcast, or what the tile held) + (adjacency tile) · (the slab read).
  These are `slabRead`, `scratchAfter`, `tileAfter` below, stated over the two branch conditions.
-/
import proofs.«156189_g32186484916413_cont_8to1_b_1688_12_alg».proof.Proof.Gen.KernelIdeal.Frame
import proofs.«156189_g32186484916413_cont_8to1_b_1688_12_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken: the row-tile coordinate is zero. -/
abbrev cndR (i : grid0.Coords) : Prop := k0_cond1 i = 1#1
/-- The second branch is taken: the degree coordinate is zero. -/
abbrev cndK (i : grid0.Coords) : Prop := (Scalar.cmpi .ne (Scalar.extui (Scalar.cmpi .eq (BitVec.ofNat 32 (i 1).val) 0#32)) 0#32) = 1#1

/-- The support the body computes when the row tile is zero: features times the degree's weight slab. -/
def suppNew (i : grid0.Coords) (h : cndR i) (x0 : Vec F S4096x128 .f32) (x2 : Vec F S4x128x128 .f32) : FVec F S1x4096x128 .f32 :=
  k0_pay1 (View.ld x2 (Rect.unit (s := S4x128x128) (k0_off1 i) S1x128x128.size (k0_off1_inb i h))) x0

/-- The slab the body reads back: the support just stored, or slab `k` of what the scratch held. -/
def slabRead (i : grid0.Coords) (x0 : Vec F S4096x128 .f32) (x2 : Vec F S4x128x128 .f32) (d7 : Vec F S4x4096x128 .f32) : FVec F S1x4096x128 .f32 :=
  if h : cndR i then suppNew i h x0 x2
  else View.ld d7 (Rect.unit (s := S4x4096x128) (k0_off3 i) S1x4096x128.size (k0_off3_inb i))

/-- The scratch after the body: slab `k` overwritten by the new support when the row tile is zero, else unchanged. -/
def scratchAfter (i : grid0.Coords) (arg7 : Memref sig .tc .vmem S4x4096x128 .f32) (harg7 : arg7.IsWhole)
    (x0 : Vec F S4096x128 .f32) (x2 : Vec F S4x128x128 .f32) (d7 : Vec F S4x4096x128 .f32) : Vec F S4x4096x128 .f32 :=
  if h : cndR i then
    arg7.view.read (Elt F) (arg7.view.writes (Elt F) (harg7.unread d7)
      [⟨Rect.unit (s := S4x4096x128) (k0_off2 i) S1x4096x128.size (k0_off2_inb i h), suppNew i h x0 x2⟩])
  else d7

/-- The output tile after the body: (the bias broadcast when the degree is zero, else what the tile held) plus
    the adjacency tile times the slab read. -/
def tileAfter (i : grid0.Coords) (x0 : Vec F S4096x128 .f32) (x1 : Vec F S1x512x4096 .f32) (x2 : Vec F S4x128x128 .f32)
    (x3 : Vec F S1x128 .f32) (d6 : Vec F S512x128 .f32) (d7 : Vec F S4x4096x128 .f32) : FVec F S512x128 .f32 :=
  k0_pay3 (slabRead i x0 x2 d7) (if cndK i then k0_pay2 x3 else d6) x1

/-- A load through a unit-stride rectangle of what ONE store through the same rectangle left reads that store's
    payload, whatever the buffer held before (the offsets of the two given by an equation, so that two spellings of
    one offset chain are accepted). -/
theorem readCov_unit_same {sig' : RefSig} {κ : Kind} {sp : Space} {s : Shape} {e : EltTy} {Val : EltTy → Type} [∀ e, Nonempty (Val e)]
    (v : View sig' κ sp s e) {off off' size : Fin s.rank → ℕ} (inb : ∀ a, off a + size a ≤ s.size a)
    (inb' : ∀ a, off' a + size a ≤ s.size a) (W : (Rect.unit off size inb).shape.Idx → Val e) (h : off = off') :
    v.readCov [(⟨Rect.unit off size inb, W⟩ : View.Piece Val s e)] (Rect.unit off' size inb').toLoadRect = W := by
  subst h
  funext x
  exact View.read_writes_cons_emb v _ (Rect.unit off size inb) W [] x

theorem hz2 : (![0, 0] : Fin 2 → Nat) = fun _ => 0 := funext fun a => by fin_cases a <;> rfl
theorem hz3 : (![0, 0, 0] : Fin 3 → Nat) = fun _ => 0 := funext fun a => by fin_cases a <;> rfl

/-- The body's triple, as every case states it: the inputs' staging buffers at their blocks, the output tile's
    and the scratch at given contents; they come back with the inputs untouched, the tile at `tileAfter` and the scratch
    at `scratchAfter`. -/
def BodyTriple (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) : Prop :=
  ∀ (x0 : Vec F S4096x128 .f32) (x1 : Vec F S1x512x4096 .f32) (x2 : Vec F S4x128x128 .f32) (x3 : Vec F S1x128 .f32)
    (d6 : Vec F S512x128 .f32) (d7 : Vec F S4x4096x128 .f32) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg7 fullShare d7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (tileAfter i x0 x1 x2 x3 d6 d7) ∗ owns (c : Thread nD τ) arg7 fullShare (scratchAfter i arg7 harg7 x0 x2 d7)) -∗ K ⟨⟩))
      ⊢ wp frame (wpE (defs₀ (F := F)) Variants.none c none) E (cc0__cheby_kernel i arg2 harg2 arg3 harg3 arg4 harg4 arg5 harg5 arg6 harg6 arg7 harg7) K

end Cert.KernelIdeal.Body

end
-- ==== Proof.IBodyA.lean ====
/-
  The body's triple when the row tile is zero and the degree is zero: the support is computed and stored, the tile is reset to the bias.
  The body is run symbolically through its loads, stores and the two decided branches; what is left is to read the
  stored pieces back: a store through the whole tile leaves its payload, and a load of a slab just stored reads
  that store's payload.
-/
import proofs.«156189_g32186484916413_cont_8to1_b_1688_12_alg».proof.Proof.IBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyA (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : cndR i) (hc1 : cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_pos hc0, if_pos hc1]
    unfold suppNew
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · refine (readCov_unit_same _ _ _ _ (by rfl)).trans ?_
      simp only [View.readAt_eq_ld, harg2.read_unread, harg4.read_unread, View.ld_unit_zero (S := S4096x128) hz2]
      try rfl
    · rw [View.readCov_unit_zero (S := S512x128) _ hz2]
      simp only [View.readAt_eq_ld, harg5.read_unread, View.ld_unit_zero (S := S1x128) hz2]
      try rfl
    · simp only [View.readAt_eq_ld, harg3.read_unread, View.ld_unit_zero (S := S1x512x4096) hz3]
      try rfl
  iexists _; isplitr; swap; · iexact HS0
  ipureintro
  sl_unfold_words
  unfold scratchAfter
  rw [dif_pos hc0]
  unfold suppNew
  simp only [View.readAt_eq_ld, harg2.read_unread, harg4.read_unread, View.ld_unit_zero (S := S4096x128) hz2]
  try rfl

end Cert.KernelIdeal.Body

end
-- ==== Proof.IBodyB.lean ====
/-
  The body's triple when the row tile is zero and the degree is not: the support is computed and stored, the tile accumulates.
  The body is run symbolically through its loads, stores and the two decided branches; what is left is to read the
  stored pieces back: a store through the whole tile leaves its payload, and a load of a slab just stored reads
  that store's payload.
-/
import proofs.«156189_g32186484916413_cont_8to1_b_1688_12_alg».proof.Proof.IBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyB (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : cndR i) (hc1 : ¬cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_pos hc0, if_neg hc1]
    unfold suppNew
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · refine (readCov_unit_same _ _ _ _ (by rfl)).trans ?_
      simp only [View.readAt_eq_ld, harg2.read_unread, harg4.read_unread, View.ld_unit_zero (S := S4096x128) hz2]
      try rfl
    · simp only [View.readAt_eq_ld, harg6.read_unread, View.ld_unit_zero (S := S512x128) hz2]
      try rfl
    · simp only [View.readAt_eq_ld, harg3.read_unread, View.ld_unit_zero (S := S1x512x4096) hz3]
      try rfl
  iexists _; isplitr; swap; · iexact HS0
  ipureintro
  sl_unfold_words
  unfold scratchAfter
  rw [dif_pos hc0]
  unfold suppNew
  simp only [View.readAt_eq_ld, harg2.read_unread, harg4.read_unread, View.ld_unit_zero (S := S4096x128) hz2]
  try rfl

end Cert.KernelIdeal.Body

end
-- ==== Proof.IBodyC.lean ====
/-
  The body's triple when the row tile is not zero and the degree is zero: the scratch is only read, the tile is reset to the bias.
  The body is run symbolically through its loads, stores and the two decided branches; what is left is to read the
  stored pieces back: a store through the whole tile leaves its payload, and a load of a slab just stored reads
  that store's payload.
-/
import proofs.«156189_g32186484916413_cont_8to1_b_1688_12_alg».proof.Proof.IBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyC (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : ¬cndR i) (hc1 : cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_neg hc0, if_pos hc1]
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · simp only [View.readAt_eq_ld, harg7.read_unread]
      try rfl
    · rw [View.readCov_unit_zero (S := S512x128) _ hz2]
      simp only [View.readAt_eq_ld, harg5.read_unread, View.ld_unit_zero (S := S1x128) hz2]
      try rfl
    · simp only [View.readAt_eq_ld, harg3.read_unread, View.ld_unit_zero (S := S1x512x4096) hz3]
      try rfl
  iexists _; isplitr; swap; · iexact HS0
  ipureintro
  unfold scratchAfter
  rw [dif_neg hc0]
  exact harg7.read_unread _

end Cert.KernelIdeal.Body

end
-- ==== Proof.IBodyD.lean ====
/-
  The body's triple when neither coordinate is zero: the scratch is only read, the tile accumulates.
  The body is run symbolically through its loads, stores and the two decided branches; what is left is to read the
  stored pieces back: a store through the whole tile leaves its payload, and a load of a slab just stored reads
  that store's payload.
-/
import proofs.«156189_g32186484916413_cont_8to1_b_1688_12_alg».proof.Proof.IBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem bodyD (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) (hc0 : ¬cndR i) (hc1 : ¬cndK i) :
    BodyTriple (F := F) c i arg2 harg2 arg3 harg3 arg4 harg4 arg5 harg5 arg6 harg6 arg7 harg7 := by
  intro x0 x1 x2 x3 d6 d7 E K
  simp only [cc0__cheby_kernel_eq_skeleton]; unfold cc0__cheby_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    unfold tileAfter slabRead
    rw [dif_neg hc0, if_neg hc1]
    rw [View.read_writes_eq_canon _ _ _ (fun y => ⟨_, List.mem_cons_self, View.mem_set_unit_zero hz2 inb_S512x128_S512x128_0_0 y⟩), View.canon_cons_unit_zero (S := S512x128) hz2]
    refine congr (congr (congrArg k0_pay3 ?_) ?_) ?_
    · simp only [View.readAt_eq_ld, harg7.read_unread]
      try rfl
    · simp only [View.readAt_eq_ld, harg6.read_unread, View.ld_unit_zero (S := S512x128) hz2]
      try rfl
    · simp only [View.readAt_eq_ld, harg3.read_unread, View.ld_unit_zero (S := S1x512x4096) hz3]
      try rfl
  iexists _; isplitr; swap; · iexact HS0
  ipureintro
  unfold scratchAfter
  rw [dif_neg hc0]
  exact harg7.read_unread _

end Cert.KernelIdeal.Body

end
-- ==== Proof.IBody.lean ====
/-
  The body's triple at any grid point: whichever way the two branches go, one of the four cases applies.
-/
import proofs.«156189_g32186484916413_cont_8to1_b_1688_12_alg».proof.Proof.IBodyA
import proofs.«156189_g32186484916413_cont_8to1_b_1688_12_alg».proof.Proof.IBodyB
import proofs.«156189_g32186484916413_cont_8to1_b_1688_12_alg».proof.Proof.IBodyC
import proofs.«156189_g32186484916413_cont_8to1_b_1688_12_alg».proof.Proof.IBodyD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body (c : Dev nD) (i : grid0.Coords) (arg2 : Memref sig .tc .vmem S4096x128 .f32) (harg2 : arg2.IsWhole) (arg3 : Memref sig .tc .vmem S1x512x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4x4096x128 .f32) (harg7 : arg7.IsWhole) :
    BodyTriple (F := F) c i arg2 harg2 arg3 harg3 arg4 harg4 arg5 harg5 arg6 harg6 arg7 harg7 := by
  by_cases hc0 : cndR i
  · by_cases hc1 : cndK i
    · exact bodyA c i arg2 harg2 arg3 harg3 arg4 harg4 arg5 harg5 arg6 harg6 arg7 harg7 hc0 hc1
    · exact bodyB c i arg2 harg2 arg3 harg3 arg4 harg4 arg5 harg5 arg6 harg6 arg7 harg7 hc0 hc1
  · by_cases hc1 : cndK i
    · exact bodyC c i arg2 harg2 arg3 harg3 arg4 harg4 arg5 harg5 arg6 harg6 arg7 harg7 hc0 hc1
    · exact bodyD c i arg2 harg2 arg3 harg3 arg4 harg4 arg5 harg5 arg6 harg6 arg7 harg7 hc0 hc1

end Cert.KernelIdeal.Body

end
-- ==== Proof.IData.lean ====
/-
  The proof data of the pipeline and its body obligation, hence the run of @main and the frame.

  The grid is 8 row tiles by 4 degrees, walked with the degree fastest: point t is (r, k) = (t / 4, t % 4). The first
  branch of the body is taken exactly at the points t < 4 (r = 0) and the second exactly at t % 4 = 0 (k = 0); the three
  offset chains of the body all come to the slab (k, 0, 0).

  The scratch carries the supports between points. The invariant before point t says: for every degree k < min(t, 4),
  slab k of the scratch holds S_k, the support the body computed at point k. Point t < 4 stores slab t and leaves the
  slabs below it alone (a store through a rectangle changes nothing outside it), so the invariant moves from t to t + 1;
  a later point only reads. Either way the slab the body reads at point t is S_(t % 4).

  The output tile is carried over the four degrees of one row tile: at k = 0 it is reset to the bias broadcast over the
  rows, and every point adds (adjacency tile) · S_k. `tileAt` is that chain, by recursion on the point. The tile is
  written back after k = 3 and its staging buffer is fresh at the next point, which resets it.
-/
import proofs.«156189_g32186484916413_cont_8to1_b_1688_12_alg».proof.Proof.IBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the offsets over the grid -/

theorem hcndR : ∀ t : Fin cfg0.N, cndR (grid0.coords t) ↔ t.val < 4 :=
  (by decide +kernel : ∀ t : Fin grid0.N, cndR (grid0.coords t) ↔ t.val < 4)
theorem hcndK : ∀ t : Fin cfg0.N, cndK (grid0.coords t) ↔ t.val % 4 = 0 :=
  (by decide +kernel : ∀ t : Fin grid0.N, cndK (grid0.coords t) ↔ t.val % 4 = 0)
theorem hoff1 : ∀ t : Fin cfg0.N, k0_off1 (grid0.coords t) = ![t.val % 4, 0, 0] :=
  (by decide +kernel : ∀ t : Fin grid0.N, k0_off1 (grid0.coords t) = ![t.val % 4, 0, 0])
theorem hoff2 : ∀ t : Fin cfg0.N, k0_off2 (grid0.coords t) = ![t.val % 4, 0, 0] :=
  (by decide +kernel : ∀ t : Fin grid0.N, k0_off2 (grid0.coords t) = ![t.val % 4, 0, 0])
theorem hoff3 : ∀ t : Fin cfg0.N, k0_off3 (grid0.coords t) = ![t.val % 4, 0, 0] :=
  (by decide +kernel : ∀ t : Fin grid0.N, k0_off3 (grid0.coords t) = ![t.val % 4, 0, 0])

/-! ## The staging memrefs the pipeline passes, and the scratch -/

abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
/-- The scratch: a whole scoped buffer of the kernel's own. -/
abbrev scM : Memref sig .tc .vmem S4x4096x128 .f32 := Memref.whole cc0_scratch0

/-- What the launch hands the region besides the windows: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The supports, and the scratch invariant -/

/-- Point `k` of the grid, for a degree `k < 4`: row tile 0, degree `k`. -/
def ptOf (k : ℕ) (hk : k < 4) : Fin cfg0.N := ⟨k, by rw [show cfg0.N = 32 from N_0]; omega⟩

/-- The support of degree `k`: what the body computes, and stores into slab `k`, at point `k`. -/
def suppAt (c : Dev nD) (k : ℕ) (hk : k < 4) : FVec F S1x4096x128 .f32 :=
  suppNew (grid0.coords (ptOf k hk)) ((hcndR (ptOf k hk)).mpr hk) (iblk m c 0 (ptOf k hk)) (iblk m c 2 (ptOf k hk))

theorem suppAt_congr (c : Dev nD) (k k' : ℕ) (hk : k < 4) (hk' : k' < 4) (e : k = k') : suppAt m c k hk = suppAt m c k' hk' := by
  subst e; rfl

/-- At a point of the first row tile the support the body computes is the support of its degree. -/
theorem suppNew_eq_suppAt (c : Dev nD) (t : Fin cfg0.N) (h : t.val < 4) :
    suppNew (grid0.coords t) ((hcndR t).mpr h) (iblk m c 0 t) (iblk m c 2 t) = suppAt m c t.val h := by
  obtain ⟨n, hn⟩ := t
  rfl

/-- Before point `n`: every slab of a degree below `min n 4` holds that degree's support. -/
def ScrInv (c : Dev nD) (n : ℕ) (d7 : Vec F S4x4096x128 .f32) : Prop :=
  ∀ (k : ℕ) (hk : k < 4), k < n → ∀ (inb : ∀ a, (![k, 0, 0] : Fin 3 → ℕ) a + S1x4096x128.size a ≤ S4x4096x128.size a),
    View.ld d7 (Rect.unit (s := S4x4096x128) ![k, 0, 0] S1x4096x128.size inb) = suppAt m c k hk

/-- A load through a unit-stride rectangle depends on the offsets' values only. -/
theorem ld_unit_congr {S : Shape} {e : EltTy} {Val : EltTy → Type} (X : S.Idx → Val e) {off off' size : Fin S.rank → ℕ}
    (inb : ∀ a, off a + size a ≤ S.size a) (h : off = off') :
    View.ld X (Rect.unit off size inb) = View.ld X (Rect.unit off' size (h ▸ inb)) := by
  subst h; rfl

/-- The slab the body reads at point `t` is the support of degree `t % 4`: just stored (first row tile), or kept by
    the invariant (later row tiles). -/
theorem slabRead_eq (c : Dev nD) (t : Fin cfg0.N) (d7 : Vec F S4x4096x128 .f32) (hinv : ScrInv m c t.val d7) :
    slabRead (grid0.coords t) (iblk m c 0 t) (iblk m c 2 t) d7 = suppAt m c (t.val % 4) (Nat.mod_lt _ (by decide)) := by
  unfold slabRead
  by_cases h : t.val < 4
  · rw [dif_pos ((hcndR t).mpr h)]
    exact (suppNew_eq_suppAt m c t h).trans (suppAt_congr m c _ _ _ _ (Nat.mod_eq_of_lt h).symm)
  · rw [dif_neg (fun hc => h ((hcndR t).mp hc))]
    exact (ld_unit_congr d7 _ (hoff3 t)).trans (hinv (t.val % 4) (Nat.mod_lt _ (by decide)) (by omega) _)

/-- The invariant moves from point `t` to point `t + 1`. -/
theorem scrInv_step (c : Dev nD) (t : Fin cfg0.N) (d7 : Vec F S4x4096x128 .f32) (hinv : ScrInv m c t.val d7) :
    ScrInv m c (t.val + 1) (scratchAfter (grid0.coords t) scM (Memref.isWhole_whole _) (iblk m c 0 t) (iblk m c 2 t) d7) := by
  unfold scratchAfter
  by_cases h : t.val < 4
  · rw [dif_pos ((hcndR t).mpr h)]
    have e2 : k0_off2 (grid0.coords t) = ![t.val, 0, 0] := by rw [hoff2 t, Nat.mod_eq_of_lt h]
    intro k hk hlt inb
    funext y
    by_cases hkt : k = t.val
    · subst hkt
      refine (View.read_writes_cons_unit_of_mem scM.view _ (k0_off2_inb _ ((hcndR t).mpr h)) _ [] _ y e2 (fun a => ?_)).trans ?_
      · show (![t.val, 0, 0] : Fin 3 → ℕ) a + 1 * (y a).val = (![t.val, 0, 0] : Fin 3 → ℕ) a + (y a).val
        rw [Nat.one_mul]
      · exact congrFun (suppNew_eq_suppAt m c t h) y
    · have hlt' : k < t.val := by omega
      refine (View.read_writes_cons_unit_of_not_mem scM.view _ (k0_off2_inb _ ((hcndR t).mpr h)) _ [] _ e2 0 (Or.inl ?_)).trans ?_
      · show k + 1 * (y 0).val < t.val
        have h1 : (y 0).val < 1 := (y 0).isLt
        omega
      · rw [View.writes_nil]
        show View.read (Elt F) scM.view ((Memref.isWhole_whole cc0_scratch0).unread d7) _ = _
        rw [(Memref.isWhole_whole cc0_scratch0).read_unread]
        exact congrFun (hinv k hk hlt' inb) y
  · rw [dif_neg (fun hc => h ((hcndR t).mp hc))]
    intro k hk hlt inb
    exact hinv k hk (by omega) inb

/-! ## The output tile, point by point -/

/-- The output tile after point `n`: reset to the bias at degree 0, plus (adjacency tile) · (support) at every point. -/
def tileAt (c : Dev nD) : (n : ℕ) → n < cfg0.N → FVec F S512x128 .f32
  | 0, h => k0_pay3 (suppAt m c 0 (by decide)) (k0_pay2 (iblk m c 3 ⟨0, h⟩)) (iblk m c 1 ⟨0, h⟩)
  | n + 1, h => k0_pay3 (suppAt m c ((n + 1) % 4) (Nat.mod_lt _ (by decide)))
      (if (n + 1) % 4 = 0 then k0_pay2 (iblk m c 3 ⟨n + 1, h⟩) else tileAt c n (Nat.lt_of_succ_lt h)) (iblk m c 1 ⟨n + 1, h⟩)

/-! ## The pipeline's proof data -/

/-- The arrays as the region finds them; after the body each input's buffer at its block and the output tile at
    `tileAt`; the invariant: the scratch at some contents satisfying `ScrInv`, and the generator register at some state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileAt m c t.val t.isLt
  Φ t := iprop(∃ d7, ⌜ScrInv m c t.val d7⌝ ∗ owns (c : Thread nD τ) scM fullShare d7 ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = tileAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a later point of the same row tile the output's staging buffer holds what the point before left. -/
theorem before4_kept (c : Dev nD) (n : ℕ) (hn : n + 1 < cfg0.N) (h0 : (n + 1) % 4 ≠ 0) (d) :
    (dats m 0 c).before 4 ⟨n + 1, hn⟩ d = tileAt m c n (Nat.lt_of_succ_lt hn) := by
  have hfl : (cfg0.win 4).flush ⟨(⟨n + 1, hn⟩ : Fin cfg0.N).val - 1, Nat.lt_of_le_of_lt (Nat.sub_le _ _) hn⟩ = false :=
    Bool.eq_false_iff.mpr fun hf => by
      have := (flush0_4 _).mp hf
      dsimp only at this
      omega
  rw [(dats m 0 c).before_out_kept 4 rfl ⟨n + 1, hn⟩ (Nat.succ_ne_zero n) hfl (fun _ => rfl) (fun _ _ => rfl) d]
  exact after4 m c _

/-- The output tile the body leaves at point `t` is `tileAt`. -/
theorem tile_step (c : Dev nD) (t : Fin cfg0.N) (d4) (d7 : Vec F S4x4096x128 .f32) (hinv : ScrInv m c t.val d7) :
    tileAfter (grid0.coords t) (iblk m c 0 t) (iblk m c 1 t) (iblk m c 2 t) (iblk m c 3 t) ((dats m 0 c).before 4 t d4) d7
      = tileAt m c t.val t.isLt := by
  unfold tileAfter
  rw [slabRead_eq m c t d7 hinv]
  obtain ⟨n, hn⟩ := t
  cases n with
  | zero =>
    rw [if_pos ((hcndK ⟨0, hn⟩).mpr rfl)]
    rfl
  | succ n =>
    by_cases h0 : (n + 1) % 4 = 0
    · rw [if_pos ((hcndK ⟨n + 1, hn⟩).mpr h0)]
      show _ = k0_pay3 _ (if (n + 1) % 4 = 0 then _ else _) _
      rw [if_pos h0]
    · rw [if_neg (fun hc => h0 ((hcndK ⟨n + 1, hn⟩).mp hc)), before4_kept m c n hn h0 d4]
      show _ = k0_pay3 _ (if (n + 1) % 4 = 0 then _ else _) _
      rw [if_neg h0]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks, the scratch satisfies the invariant; the body's
    triple applies; the tile it leaves is `tileAt` and the scratch it leaves satisfies the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3, after4]
  rw [show (dats m 0 c).Φ t.castSucc = iprop(∃ d7, ⌜ScrInv m c t.val d7⌝ ∗ owns (c : Thread nD τ) scM fullShare d7 ∗ (∃ r, prngReg c r)) from rfl,
    show (dats m 0 c).Φ t.succ = iprop(∃ d7, ⌜ScrInv m c (t.val + 1) d7⌝ ∗ owns (c : Thread nD τ) scM fullShare d7 ∗ (∃ r, prngReg c r)) from rfl]
  iintro ⟨⟨%d7, %hinv, HS0, Hg⟩, Ho, ⟨%d0, H0⟩, ⟨%d1, H1⟩, ⟨%d2, H2⟩, ⟨%d3, H3⟩, ⟨%d4, H4⟩⟩
  rw [← tile_step m c t d4 d7 hinv]
  iapply (body c (grid0.coords t) (ms0 t) (hs0 t) (ms1 t) (hs1 t) (ms2 t) (hs2 t) (ms3 t) (hs3 t) (ms4 t) (hs4 t) scM (Memref.isWhole_whole _)
    (iblk m c 0 t) (iblk m c 1 t) (iblk m c 2 t) (iblk m c 3 t) ((dats m 0 c).before 4 t d4) d7 Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, H4, HS0⟩
  isplitl [HS0 Hg]
  · iexists _
    isplitr
    · ipureintro; exact scrInv_step m c t d7 hinv
    isplitl [HS0]
    · iexact HS0
    iexact Hg
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-- What the launch hands the region is the invariant before the first point: no slab is promised yet. -/
theorem hin (c : Dev nD) : Pipeline.ΦA spec0 c ⊢ (dats m 0 c).Φ 0 := by
  rw [show (dats m 0 c).Φ 0 = iprop(∃ d7, ⌜ScrInv m c 0 d7⌝ ∗ owns (c : Thread nD τ) scM fullShare d7 ∗ (∃ r, prngReg c r)) from rfl, PhiA_eq]
  iintro ⟨⟨%d, HS0⟩, Hg⟩
  iexists d
  isplitr
  · ipureintro; intro k hk hlt; exact absurd hlt (Nat.not_lt_zero k)
  isplitl [HS0]
  · iexact HS0
  iexact Hg

/-- After the last point the invariant gives the scratch back, its contents forgotten. -/
theorem hout (c : Dev nD) : (dats m 0 c).Φ (Fin.last cfg0.N) ⊢ Pipeline.ΦA spec0 c := by
  rw [show (dats m 0 c).Φ (Fin.last cfg0.N) = iprop(∃ d7, ⌜ScrInv m c (Fin.last cfg0.N).val d7⌝ ∗ owns (c : Thread nD τ) scM fullShare d7 ∗ (∃ r, prngReg c r)) from rfl, PhiA_eq]
  iintro ⟨%d, %h, HS0, Hg⟩
  isplitl [HS0]
  · iexists _; iexact HS0
  iexact Hg

/-! ## The run and the frame -/

set_option backward.isDefEq.respectTransparency.types false in
/-- Every weakly fair execution of @main terminates; every array of the pipeline ends at what the library computes
    from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run terminates and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.IPay.lean ====
/-
  The body's three payloads read at an index, over the extended reals.

  * The support payload casts the weight slab [1, 128, 128] to a matrix, multiplies the features by it into a zero
    accumulator, and casts the product [4096, 128] to a slab [1, 4096, 128]: entry (0, n, c) is the sum over j of
    x[n, j] · w[0, j, c].
  * The reset payload broadcasts the bias row [1, 128] over the 512 rows of the tile: entry (p, c) is b[0, c].
  * The accumulation payload casts the adjacency tile [1, 512, 4096] and the support slab [1, 4096, 128] to matrices,
    multiplies them into a zero accumulator and adds the product to the tile: entry (p, c) is the tile's entry plus the
    sum over n of a[0, p, n] · s[0, n, c].
  A matrix product into a zero accumulator read at an index is the plain sum over the contracted axis; a cast between
  shapes that differ by a leading unit axis keeps the row-major position.
-/
import proofs.«156189_g32186484916413_cont_8to1_b_1688_12_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen
open Idealize.ShloMosaic Idealize.ShloMosaic.TcCoe Idealize.SL.Sem Idealize.ShloMosaic.ValueIdx

theorem d1_lhs0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem d1_lhs1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem d1_rhs0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem d1_rhs1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The matrix product into a zero accumulator, read at (row, column): the sum over the contracted axis. -/
theorem mm1_apply (l : FVec Ideal S4096x128 .f32) (r : FVec Ideal S128x128 .f32) (p : Fin 4096) (q : Fin 128) :
    matmul dot_S4096x128_S128x128_S4096x128_1_0_0_1_n_n none l r (constant (F := Ideal) S4096x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact d1_lhs0 _ _
    | ⟨1, _⟩ => exact (d1_lhs1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (d1_rhs0 _ _).trans hk
    | ⟨1, _⟩ => exact d1_rhs1 _ _)
  rw [el, er]

theorem d2_lhs0 (i : S512x128.Idx) (q : dot_S512x4096_S4096x128_S512x128_1_0_0_1_n_n.contr.Idx) : (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem d2_lhs1 (i : S512x128.Idx) (q : dot_S512x4096_S4096x128_S512x128_1_0_0_1_n_n.contr.Idx) : (dot_S512x4096_S4096x128_S512x128_1_0_0_1_n_n.lhsIdx i q 1).val = (q ⟨0, by decide⟩).val :=
  dot_S512x4096_S4096x128_S512x128_1_0_0_1_n_n.lhsIdx_val_of_single rfl i q
theorem d2_rhs0 (i : S512x128.Idx) (q : dot_S512x4096_S4096x128_S512x128_1_0_0_1_n_n.contr.Idx) : (dot_S512x4096_S4096x128_S512x128_1_0_0_1_n_n.rhsIdx i q 0).val = (q ⟨0, by decide⟩).val :=
  dot_S512x4096_S4096x128_S512x128_1_0_0_1_n_n.rhsIdx_val_of_single rfl i q
theorem d2_rhs1 (i : S512x128.Idx) (q : dot_S512x4096_S4096x128_S512x128_1_0_0_1_n_n.contr.Idx) : (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The matrix product into a zero accumulator, read at (row, column): the sum over the contracted axis. -/
theorem mm2_apply (l : FVec Ideal S512x4096 .f32) (r : FVec Ideal S4096x128 .f32) (p : Fin 512) (q : Fin 128) :
    matmul dot_S512x4096_S4096x128_S512x128_1_0_0_1_n_n none l r (constant (F := Ideal) S512x128 .f32 0x00000000#32) (ix2 p q)
      = ∑ k : Fin 4096, l (ix2 p k) * r (ix2 k q) := by
  simp only [matmul]
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p q) ((ValueIdx.contrEquiv1 dot_S512x4096_S4096x128_S512x128_1_0_0_1_n_n 4096 rfl rfl).symm k) = ix2 p k := funext fun a => Fin.ext (by
    match a with
    | ⟨0, _⟩ => exact d2_lhs0 _ _
    | ⟨1, _⟩ => exact (d2_lhs1 _ _).trans hk)
  have er : dot_S512x4096_S4096x128_S512x128_1_0_0_1_n_n.rhsIdx (ix2 p q) ((ValueIdx.contrEquiv1 dot_S512x4096_S4096x128_S512x128_1_0_0_1_n_n 4096 rfl rfl).symm k) = ix2 k q := funext fun a => Fin.ext (by
    match a with
    | ⟨0, _⟩ => exact (d2_rhs0 _ _).trans hk
    | ⟨1, _⟩ => exact d2_rhs1 _ _)
  rw [el, er]

/-- The support payload at (0, n, c): the sum over j of x[n, j] · w[0, j, c]. -/
theorem pay1_apply (v17 : Vec Ideal S1x128x128 .f32) (v19 : Vec Ideal S4096x128 .f32) (z : Fin 1) (n : Fin 4096) (q : Fin 128) :
    k0_pay1 v17 v19 (ix3 z n q) = ∑ j : Fin 128, v19 (ix2 n j) * v17 (ix3 (0 : Fin 1) j q) := by
  unfold k0_pay1
  refine (congrFun (shapeCast_self _ _) _).trans ?_
  refine (shapeCast_apply _ shapeCasts_S4096x128_S1x4096x128 (ix3 z n q) (ix2 n q) (by
    rewrite [Shape.rowMajor_val_two, Shape.rowMajor_val_three]
    show n.val * 128 + q.val = (z.val * 4096 + n.val) * 128 + q.val
    have := z.isLt; omega)).trans ?_
  refine (mm1_apply _ _ n q).trans (Finset.sum_congr rfl fun j _ => ?_)
  refine congrArg (v19 (ix2 n j) * ·) ?_
  exact shapeCast_apply v17 shapeCasts_S1x128x128_S128x128 (ix2 j q) (ix3 (0 : Fin 1) j q) (by
    rewrite [Shape.rowMajor_val_two, Shape.rowMajor_val_three]
    show ((0 : ℕ) * 128 + j.val) * 128 + q.val = j.val * 128 + q.val
    omega)

/-- The reset payload at (p, c): the bias row's entry (0, c). -/
theorem pay2_apply (v16 : Vec Ideal S1x128 .f32) (p : Fin 512) (q : Fin 128) :
    k0_pay2 v16 (ix2 p q) = v16 (ix2 (0 : Fin 1) q) := by
  unfold k0_pay2
  refine (broadcastTo_apply _ broadcasts_S1x128_S512x128 (ix2 p q) (ix2 (0 : Fin 1) q) (fun a => by
    match a with
    | ⟨0, _⟩ => show (0 : ℕ) = if (1 : ℕ) = 1 then 0 else _; rw [if_pos rfl]
    | ⟨1, _⟩ => show q.val = if (128 : ℕ) = 1 then 0 else q.val; rw [if_neg (by decide)])).trans ?_
  refine (congrFun (shapeCast_self _ _) _).trans ?_
  exact congrFun (shapeCast_self _ _) _

/-- The accumulation payload at (p, c): the tile's entry plus the sum over n of a[0, p, n] · s[0, n, c]. -/
theorem pay3_apply (v7 : Vec Ideal S1x4096x128 .f32) (v9 : Vec Ideal S512x128 .f32) (v11 : Vec Ideal S1x512x4096 .f32)
    (p : Fin 512) (q : Fin 128) :
    k0_pay3 v7 v9 v11 (ix2 p q) = v9 (ix2 p q) + ∑ n : Fin 4096, v11 (ix3 (0 : Fin 1) p n) * v7 (ix3 (0 : Fin 1) n q) := by
  unfold k0_pay3
  show (shapeCast S512x128 v9 shapeCasts_S512x128_S512x128) (ix2 p q) + _ = _
  refine congr (congrArg HAdd.hAdd (congrFun (shapeCast_self v9 _) _)) ?_
  refine (mm2_apply _ _ p q).trans (Finset.sum_congr rfl fun n _ => ?_)
  refine congr (congrArg HMul.hMul ?_) ?_
  · exact shapeCast_apply v11 shapeCasts_S1x512x4096_S512x4096 (ix2 p n) (ix3 (0 : Fin 1) p n) (by
      rewrite [Shape.rowMajor_val_two, Shape.rowMajor_val_three]
      show ((0 : ℕ) * 512 + p.val) * 4096 + n.val = p.val * 4096 + n.val
      omega)
  · exact shapeCast_apply v7 shapeCasts_S1x4096x128_S4096x128 (ix2 n q) (ix3 (0 : Fin 1) n q) (by
      rewrite [Shape.rowMajor_val_two, Shape.rowMajor_val_three]
      show ((0 : ℕ) * 4096 + n.val) * 128 + q.val = n.val * 128 + q.val
      omega)

end Cert.KernelIdeal.KValue

end
-- ==== Proof.Spec.lean ====
/-
  The Chebyshev graph convolution as one function of its four argument arrays, over the extended reals.

  With x : [4096, 128] the node features, a : [4, 4096, 4096] the stack of adjacency powers, w : [4, 128, 128] the stack
  of weights and b : [128] the bias, the support of degree k is the matrix product  S_k = x · w_k  (entry (n, c) the sum
  over j of x[n, j] · w[k, j, c]), the term of degree k is  T_k = a_k · S_k  (entry (r, c) the sum over n of
  a[k, r, n] · S_k[n, c]), and the result is  T_0 + T_1 + T_2 + T_3 + b  with the bias added to every row.

  Two orders of the outer sum are stated: the one that adds the bias last, and the one that starts from the bias and
  adds the four terms in turn. They agree because addition of extended reals is commutative and associative; nothing
  here needs the entries to be finite.
-/
import Idealize.ShloMosaic.PureOps.Ideal
import Idealize.ShloMosaic.Lib.ValueIdx

noncomputable section

namespace Cert.Cheby

open Idealize.ShloMosaic Idealize.ShloMosaic.ValueIdx

/-- Node features, [4096, 128]. -/
abbrev SX : Shape := ⟨2, ![4096, 128]⟩
/-- Adjacency powers, [4, 4096, 4096]. -/
abbrev SA : Shape := ⟨3, ![4, 4096, 4096]⟩
/-- Weights, [4, 128, 128]. -/
abbrev SW : Shape := ⟨3, ![4, 128, 128]⟩
/-- Bias, [128]. -/
abbrev SB : Shape := ⟨1, ![128]⟩

variable (x : SX.Idx → EReal) (a : SA.Idx → EReal) (w : SW.Idx → EReal) (b : SB.Idx → EReal)

/-- The support of degree `k` at row `n`, column `c`: the product of the features with the degree's weights. -/
def supp (k : Fin 4) (n : Fin 4096) (c : Fin 128) : EReal :=
  ∑ j : Fin 128, x (ix2 n j) * w (ix3 k j c)

/-- The term of degree `k` at row `r`, column `c`: the degree's adjacency power times its support. -/
def term (k : Fin 4) (r : Fin 4096) (c : Fin 128) : EReal :=
  ∑ n : Fin 4096, a (ix3 k r n) * supp x w k n c

/-- The result with the bias added last: ((T_0 + T_1) + T_2) + T_3, then + b. -/
def biasLast (r : Fin 4096) (c : Fin 128) : EReal :=
  (((term x a w 0 r c + term x a w 1 r c) + term x a w 2 r c) + term x a w 3 r c) + b (ix1 c)

/-- The result accumulated from the bias: (((b + T_0) + T_1) + T_2) + T_3. -/
def biasFirst (r : Fin 4096) (c : Fin 128) : EReal :=
  (((b (ix1 c) + term x a w 0 r c) + term x a w 1 r c) + term x a w 2 r c) + term x a w 3 r c

/-- The two orders give one value: addition of extended reals is commutative and associative. -/
theorem biasFirst_eq_biasLast (r : Fin 4096) (c : Fin 128) :
    biasFirst x a w b r c = biasLast x a w b r c := by
  unfold biasFirst biasLast
  generalize term x a w 0 r c = t0
  generalize term x a w 1 r c = t1
  generalize term x a w 2 r c = t2
  generalize term x a w 3 r c = t3
  generalize b (ix1 c) = β
  rw [add_comm β t0, add_assoc t0 β t1, add_comm β t1, ← add_assoc t0 t1 β, add_assoc (t0 + t1) β t2, add_comm β t2,
    ← add_assoc (t0 + t1) t2 β, add_assoc (t0 + t1 + t2) β t3, add_comm β t3, ← add_assoc (t0 + t1 + t2) t3 β]

/-- The result as a whole array, bias added last. -/
def G : SX.Idx → EReal := fun i => biasLast x a w b ⟨(i 0).val, (i 0).isLt⟩ ⟨(i 1).val, (i 1).isLt⟩

end Cert.Cheby

end
-- ==== Proof.IValue.lean ====
/-
  What the idealized kernel leaves in its result array, as the specification's function of the argument arrays.

  Each input block is its argument array read at the block's offsets: the features and the weights are one block
  (offsets zero), the bias row is the bias cast to one row, and the adjacency tile at point t = (r, k) is rows
  512 r .. 512 r + 511 of slice k. So the support S_k read at (0, n, c) is the specification's `supp`, and one run of
  the body adds the specification's `term` of degree k at row 512 r + p to the tile's entry (p, c). Along the four
  points of a row tile the tile's entry runs through  b + T_0,  + T_1,  + T_2,  + T_3  — by induction on the point —
  and the write-back after k = 3 stores, at rows 512 r .. 512 r + 511 of the result, the sum accumulated from the bias.
  Every row of the result lies in exactly such a block, so the result array is that function everywhere.
-/
import proofs.«156189_g32186484916413_cont_8to1_b_1688_12_alg».proof.Proof.IData
import proofs.«156189_g32186484916413_cont_8to1_b_1688_12_alg».proof.Proof.IPay
import proofs.«156189_g32186484916413_cont_8to1_b_1688_12_alg».proof.Proof.Spec
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-! ## The index maps over the grid -/

/-- Features, weights and bias row: block (0, …, 0) at every point. Adjacency: block (k, r, 0). Result: block (r, 0). -/
theorem idxF : ∀ t : Fin cfg0.N,
    win0_0.index t (0 : Fin 2) = 0 ∧ win0_0.index t (1 : Fin 2) = 0
    ∧ win0_1.index t (0 : Fin 3) = t.val % 4 ∧ win0_1.index t (1 : Fin 3) = t.val / 4 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

theorem tlt (t : Fin cfg0.N) : t.val < 32 := lt_of_lt_of_eq t.isLt (show cfg0.N = 32 from N_0)

/-- The row of the arrays that row `p` of point `t`'s tile is. -/
def rowOf (t : Fin cfg0.N) (p : Fin 512) : Fin 4096 := ⟨512 * (t.val / 4) + p.val, by have := tlt t; have := p.isLt; omega⟩
/-- The degree of point `t`. -/
def degOf (t : Fin cfg0.N) : Fin 4 := ⟨t.val % 4, Nat.mod_lt _ (by decide)⟩

/-! ## The blocks are the argument arrays at the blocks' offsets -/

theorem blk0 (c : Dev nD) (t : Fin cfg0.N) (n : Fin 4096) (j : Fin 128) :
    iblk m c 0 t (ix2 n j) = m ((c : Thread nD τ).loc main_arg0) (ix2 n j) := by
  obtain ⟨e0, e1, -⟩ := idxF t
  refine Eq.trans ?_ (congrFun (V_main_arg0 m c) _)
  show V m c main_arg0 (((cfg0.win 0).blk t).view.emb (ix2 n j)) = V m c main_arg0 (ix2 n j)
  refine congrArg (V m c main_arg0) (funext fun a => Fin.ext ?_)
  match a with
  | ⟨0, _⟩ => show win0_0.index t (0 : Fin 2) * 4096 + 1 * n.val = n.val; omega
  | ⟨1, _⟩ => show win0_0.index t (1 : Fin 2) * 128 + 1 * j.val = j.val; omega

theorem blk1 (c : Dev nD) (t : Fin cfg0.N) (p : Fin 512) (n : Fin 4096) :
    iblk m c 1 t (ix3 (0 : Fin 1) p n) = m ((c : Thread nD τ).loc main_arg1) (ix3 (degOf t) (rowOf t p) n) := by
  obtain ⟨-, -, e0, e1, e2, -⟩ := idxF t
  refine Eq.trans ?_ (congrFun (V_main_arg1 m c) _)
  show V m c main_arg1 (((cfg0.win 1).blk t).view.emb (ix3 (0 : Fin 1) p n)) = V m c main_arg1 (ix3 (degOf t) (rowOf t p) n)
  refine congrArg (V m c main_arg1) (funext fun a => Fin.ext ?_)
  match a with
  | ⟨0, _⟩ => show win0_1.index t (0 : Fin 3) * 1 + 1 * 0 = t.val % 4; omega
  | ⟨1, _⟩ => show win0_1.index t (1 : Fin 3) * 512 + 1 * p.val = 512 * (t.val / 4) + p.val; omega
  | ⟨2, _⟩ => show win0_1.index t (2 : Fin 3) * 4096 + 1 * n.val = n.val; omega

theorem blk2 (c : Dev nD) (t : Fin cfg0.N) (k : Fin 4) (j : Fin 128) (q : Fin 128) :
    iblk m c 2 t (ix3 k j q) = m ((c : Thread nD τ).loc main_arg2) (ix3 k j q) := by
  obtain ⟨-, -, -, -, -, e0, e1, e2, -⟩ := idxF t
  refine Eq.trans ?_ (congrFun (V_main_arg2 m c) _)
  show V m c main_arg2 (((cfg0.win 2).blk t).view.emb (ix3 k j q)) = V m c main_arg2 (ix3 k j q)
  refine congrArg (V m c main_arg2) (funext fun a => Fin.ext ?_)
  match a with
  | ⟨0, _⟩ => show win0_2.index t (0 : Fin 3) * 4 + 1 * k.val = k.val; omega
  | ⟨1, _⟩ => show win0_2.index t (1 : Fin 3) * 128 + 1 * j.val = j.val; omega
  | ⟨2, _⟩ => show win0_2.index t (2 : Fin 3) * 128 + 1 * q.val = q.val; omega

/-- The bias row the region finds: the bias cast to one row. -/
theorem biasRow (c : Dev nD) (q : Fin 128) : V m c main_v0 (ix2 (0 : Fin 1) q) = m ((c : Thread nD τ).loc main_arg3) (ix1 q) := by
  have e : (V m c main_v0 : S1x128.Idx → EReal) = shapeCast S1x128 (m ((c : Thread nD τ).loc main_arg3)) shapeCasts_S128_S1x128 := by
    dsimp only [Gen.V, Gen.hostOps0]; after_results; rfl
  rw [e]
  exact shapeCast_apply _ shapeCasts_S128_S1x128 (ix2 (0 : Fin 1) q) (ix1 q) (by
    rewrite [Shape.rowMajor_val_one, Shape.rowMajor_val_two]
    show q.val = (0 : ℕ) * 128 + q.val
    omega)

theorem blk3 (c : Dev nD) (t : Fin cfg0.N) (q : Fin 128) :
    iblk m c 3 t (ix2 (0 : Fin 1) q) = m ((c : Thread nD τ).loc main_arg3) (ix1 q) := by
  obtain ⟨-, -, -, -, -, -, -, -, e0, e1, -⟩ := idxF t
  refine Eq.trans ?_ (biasRow m c q)
  show V m c main_v0 (((cfg0.win 3).blk t).view.emb (ix2 (0 : Fin 1) q)) = V m c main_v0 (ix2 (0 : Fin 1) q)
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-! ## The supports and the tile, at an index -/

/-- A load of slab `k` of the weights read at (0, j, c) is the weights at (k, j, c). -/
theorem ld_wslab (X2 : Vec Ideal S4x128x128 .f32) (off : Fin 3 → ℕ) (inb : ∀ a, off a + S1x128x128.size a ≤ S4x128x128.size a)
    (k : Fin 4) (h : off = ![k.val, 0, 0]) (j q : Fin 128) :
    View.ld X2 (Rect.unit (s := S4x128x128) off S1x128x128.size inb) (ix3 (0 : Fin 1) j q) = X2 (ix3 k j q) := by
  subst h
  show X2 ((Rect.unit (s := S4x128x128) ![k.val, 0, 0] S1x128x128.size inb).idx (ix3 (0 : Fin 1) j q)) = _
  refine congrArg X2 (funext fun a => Fin.ext ?_)
  match a with
  | ⟨0, _⟩ => show k.val + 1 * 0 = k.val; omega
  | ⟨1, _⟩ => show 0 + 1 * j.val = j.val; omega
  | ⟨2, _⟩ => show 0 + 1 * q.val = q.val; omega

/-- The support of degree `k` is the specification's. -/
theorem suppAt_apply (c : Dev nD) (k : ℕ) (hk : k < 4) (n : Fin 4096) (q : Fin 128) :
    suppAt m c k hk (ix3 (0 : Fin 1) n q)
      = Cheby.supp (m ((c : Thread nD τ).loc main_arg0)) (m ((c : Thread nD τ).loc main_arg2)) ⟨k, hk⟩ n q := by
  unfold suppAt suppNew Cheby.supp
  refine (pay1_apply _ _ 0 n q).trans (Finset.sum_congr rfl fun j _ => ?_)
  refine congr (congrArg HMul.hMul (blk0 m c (ptOf k hk) n j)) ?_
  refine (ld_wslab _ _ _ ⟨k, hk⟩ ?_ j q).trans (blk2 m c (ptOf k hk) ⟨k, hk⟩ j q)
  rw [hoff1]
  show ![(ptOf k hk).val % 4, 0, 0] = ![k, 0, 0]
  rw [show (ptOf k hk).val % 4 = k from Nat.mod_eq_of_lt hk]

/-- The specification's term of degree `k % 4`. -/
def termAt (c : Dev nD) (k : ℕ) (R : Fin 4096) (q : Fin 128) : EReal :=
  Cheby.term (m ((c : Thread nD τ).loc main_arg0)) (m ((c : Thread nD τ).loc main_arg1)) (m ((c : Thread nD τ).loc main_arg2)) ⟨k % 4, Nat.mod_lt _ (by decide)⟩ R q

/-- One run of the body adds the term of the point's degree at the tile's rows. -/
theorem step_apply (c : Dev nD) (t : Fin cfg0.N) (prev : Vec Ideal S512x128 .f32) (p : Fin 512) (q : Fin 128) :
    k0_pay3 (suppAt m c (t.val % 4) (Nat.mod_lt _ (by decide))) prev (iblk m c 1 t) (ix2 p q)
      = prev (ix2 p q) + termAt m c (t.val % 4) (rowOf t p) q := by
  refine (pay3_apply _ _ _ p q).trans ?_
  refine congrArg (prev (ix2 p q) + ·) ?_
  unfold termAt Cheby.term
  refine Finset.sum_congr rfl fun n _ => ?_
  refine congr (congrArg HMul.hMul ?_) ?_
  · exact (blk1 m c t p n).trans (congrArg (fun k => m ((c : Thread nD τ).loc main_arg1) (ix3 k (rowOf t p) n))
      (Fin.ext (by show t.val % 4 = t.val % 4 % 4; omega) : degOf t = ⟨t.val % 4 % 4, Nat.mod_lt _ (by decide)⟩))
  · exact (suppAt_apply m c _ _ n q).trans (congrArg (fun k => Cheby.supp _ _ k n q)
      (Fin.ext (by show t.val % 4 = t.val % 4 % 4; omega) : (⟨t.val % 4, Nat.mod_lt _ (by decide)⟩ : Fin 4) = ⟨t.val % 4 % 4, Nat.mod_lt _ (by decide)⟩))

/-- The bias at a column. -/
def biasAt (c : Dev nD) (q : Fin 128) : EReal := m ((c : Thread nD τ).loc main_arg3) (ix1 q)

/-- The reset tile's entry is the bias at the column. -/
theorem bias_apply (c : Dev nD) (t : Fin cfg0.N) (p : Fin 512) (q : Fin 128) :
    k0_pay2 (iblk m c 3 t) (ix2 p q) = biasAt m c q :=
  (pay2_apply _ p q).trans (blk3 m c t q)

/-- The sum accumulated from the bias through degree `j`. -/
def accAt (c : Dev nD) (R : Fin 4096) (q : Fin 128) : ℕ → EReal
  | 0 => biasAt m c q + termAt m c 0 R q
  | j + 1 => accAt c R q j + termAt m c (j + 1) R q

theorem accAt_zero (c : Dev nD) (R : Fin 4096) (q : Fin 128) : accAt m c R q 0 = biasAt m c q + termAt m c 0 R q := rfl
theorem accAt_succ (c : Dev nD) (R : Fin 4096) (q : Fin 128) (j : ℕ) :
    accAt m c R q (j + 1) = accAt m c R q j + termAt m c (j + 1) R q := rfl

/-- After point `n` the tile's entry (p, c) is the sum accumulated from the bias through degree `n % 4`, at the tile's row. -/
theorem tileAt_apply (c : Dev nD) : ∀ (n : ℕ) (hn : n < cfg0.N) (p : Fin 512) (q : Fin 128),
    tileAt m c n hn (ix2 p q) = accAt m c (rowOf ⟨n, hn⟩ p) q (n % 4)
  | 0, hn, p, q => by
    show k0_pay3 (suppAt m c 0 _) (k0_pay2 (iblk m c 3 ⟨0, hn⟩)) (iblk m c 1 ⟨0, hn⟩) (ix2 p q) = _
    refine (step_apply m c ⟨0, hn⟩ _ p q).trans ?_
    show _ + termAt m c 0 _ q = accAt m c _ q 0
    rw [accAt_zero, bias_apply]
  | n + 1, hn, p, q => by
    show k0_pay3 (suppAt m c ((n + 1) % 4) _) (if (n + 1) % 4 = 0 then _ else _) (iblk m c 1 ⟨n + 1, hn⟩) (ix2 p q) = _
    refine (step_apply m c ⟨n + 1, hn⟩ _ p q).trans ?_
    by_cases h0 : (n + 1) % 4 = 0
    · rw [if_pos h0]
      show _ + termAt m c ((n + 1) % 4) _ q = accAt m c _ q ((n + 1) % 4)
      rw [h0]
      rw [accAt_zero, bias_apply]
    · rw [if_neg h0, tileAt_apply c n (Nat.lt_of_succ_lt hn) p q]
      have e1 : (n + 1) % 4 = n % 4 + 1 := by omega
      have e2 : (n + 1) / 4 = n / 4 := by omega
      have eR : rowOf ⟨n, Nat.lt_of_succ_lt hn⟩ p = rowOf ⟨n + 1, hn⟩ p :=
        Fin.ext (by show 512 * (n / 4) + p.val = 512 * ((n + 1) / 4) + p.val; rw [e2])
      show accAt m c _ q (n % 4) + termAt m c ((n + 1) % 4) _ q = accAt m c _ q ((n + 1) % 4)
      rw [eR, e1, accAt_succ]

/-! ## The result array -/

/-- The result as a function of the four argument arrays: accumulated from the bias. -/
def resultFn (c : Dev nD) : S4096x128.Idx → EReal := fun i =>
  Cheby.biasFirst (m ((c : Thread nD τ).loc main_arg0)) (m ((c : Thread nD τ).loc main_arg1)) (m ((c : Thread nD τ).loc main_arg2)) (m ((c : Thread nD τ).loc main_arg3))
    ⟨(i 0).val, (i 0).isLt⟩ ⟨(i 1).val, (i 1).isLt⟩

abbrev result (c : Dev nD) : Buf (Elt Ideal) ((c : Thread nD τ).loc main_v1) := resultFn m c

theorem acc3_eq (c : Dev nD) (R : Fin 4096) (q : Fin 128) :
    accAt m c R q 3 = Cheby.biasFirst (m ((c : Thread nD τ).loc main_arg0)) (m ((c : Thread nD τ).loc main_arg1)) (m ((c : Thread nD τ).loc main_arg2)) (m ((c : Thread nD τ).loc main_arg3)) R q := by
  simp only [accAt, termAt, biasAt, Cheby.biasFirst]
  rfl

/-- The write-back after degree 3 writes block `r` of the result. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  obtain ⟨-, -, -, -, -, -, -, -, -, -, e0, e1⟩ := idxF t
  show (cfg0.win 4).cut (grid0.coords t) ((dats m 0 c).after 4 t) = _
  rw [after4]
  funext j
  obtain ⟨p, q, rfl⟩ : ∃ (p : Fin 512) (q : Fin 128), j = ix2 p q := ⟨j 0, j 1, eq_ix2 j⟩
  show tileAt m c t.val t.isLt (ix2 p q) = resultFn m c (((cfg0.win 4).blk t).view.emb (ix2 p q))
  rw [tileAt_apply m c t.val t.isLt p q, h3, acc3_eq]
  unfold resultFn
  refine congr (congrArg (Cheby.biasFirst _ _ _ _) (Fin.ext ?_)) (Fin.ext ?_)
  · show 512 * (t.val / 4) + p.val = win0_4.index t (0 : Fin 2) * 512 + 1 * p.val
    omega
  · show q.val = win0_4.index t (1 : Fin 2) * 128 + 1 * q.val
    omega

/-- Every row of the result lies in the block written back after degree 3 of its row tile: the result array ends at
    the function accumulated from the bias. -/
theorem final (c : Dev nD) : (dats m 0 c).arrAt 4 cfg0.N = result m c :=
  (dats m 0 c).arrAt_eq_of_cover 4 (result m c) (fun t hf => flushed_eq m c t hf) fun i => by
    have h0 : (i 0).val < 4096 := (i 0).isLt
    have h1 : (i 1).val < 128 := (i 1).isLt
    have hN : cfg0.N = 32 := N_0
    obtain ⟨t, ht⟩ : ∃ t : Fin cfg0.N, t.val = 4 * ((i 0).val / 512) + 3 :=
      ⟨⟨4 * ((i 0).val / 512) + 3, by rw [hN]; omega⟩, rfl⟩
    obtain ⟨-, -, -, -, -, -, -, -, -, -, e0, e1⟩ := idxF t
    refine ⟨t, (flush0_4 t).mpr (by omega), ?_⟩
    show i ∈ ((View.whole main_v1).slice (win0_4.rect t)).set
    rw [View.set_slice_whole, Rect.mem_set_unit]
    intro a
    match a with
    | ⟨0, _⟩ =>
      show win0_4.index t (0 : Fin 2) * 512 ≤ (i 0).val ∧ (i 0).val < win0_4.index t (0 : Fin 2) * 512 + 512
      omega
    | ⟨1, _⟩ =>
      show win0_4.index t (1 : Fin 2) * 128 ≤ (i 1).val ∧ (i 1).val < win0_4.index t (1 : Fin 2) * 128 + 128
      omega

/-- The run, read: the result array at the function accumulated from the bias, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.KValue

end
-- ==== Proof.RefRead.lean ====
/-
  The reference computes, for each degree k, the slice a_k and the slice w_k (each a slice of the stack cast to a
  matrix), the product x · w_k, the product a_k · (x · w_k), then adds the four products in order and the bias,
  broadcast over the rows, last. Read at an index (row, column) each product is the specification's term — the two
  sums over the contracted axes, with the slices' and casts' index arithmetic undone — and the whole is `Cheby.G`.
-/
import proofs.«156189_g32186484916413_cont_8to1_b_1688_12_alg».proof.Proof.Gen.ReferenceIdeal.Read
import proofs.«156189_g32186484916413_cont_8to1_b_1688_12_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- Degree 0: the adjacency slice, cast to a matrix, read at (row, n) is a[0, row, n]. -/
theorem adj_idx_0 (i : S4096x128.Idx) (k : Fin 4096) :
    idx_main_v3 (idx_main_v4 (lidx_main_v5 i k)) = ix3 (⟨0, by decide⟩ : Fin 4) (⟨(i 0).val, (i 0).isLt⟩ : Fin 4096) k :=
  funext fun a => Fin.ext (by
    have h0 : (i 0).val < 4096 := (i 0).isLt
    have hk : k.val < 4096 := k.isLt
    match a with
    | ⟨0, _⟩ => rfl
    | ⟨1, _⟩ => show ((i 0).val * 4096 + k.val) / 4096 % 4096 = (i 0).val; omega
    | ⟨2, _⟩ => show ((i 0).val * 4096 + k.val) % 4096 = k.val; omega)

/-- Degree 0: the features are read at (n, j). -/
theorem feat_idx_0 (i : S4096x128.Idx) (k : Fin 4096) (k' : Fin 128) :
    lidx_main_v2 (ridx_main_v5 i k) k' = ix2 k k' :=
  funext fun a => Fin.ext (by match a with | ⟨0, _⟩ => rfl | ⟨1, _⟩ => rfl)

/-- Degree 0: the weight slice, cast to a matrix, read at (j, column) is w[0, j, column]. -/
theorem wt_idx_0 (i : S4096x128.Idx) (k : Fin 4096) (k' : Fin 128) :
    idx_main_v0 (idx_main_v1 (ridx_main_v2 (ridx_main_v5 i k) k')) = ix3 (⟨0, by decide⟩ : Fin 4) k' (⟨(i 1).val, (i 1).isLt⟩ : Fin 128) :=
  funext fun a => Fin.ext (by
    have h1 : (i 1).val < 128 := (i 1).isLt
    have hk : k'.val < 128 := k'.isLt
    match a with
    | ⟨0, _⟩ => rfl
    | ⟨1, _⟩ => show (k'.val * 128 + (i 1).val) / 128 % 128 = k'.val; omega
    | ⟨2, _⟩ => show (k'.val * 128 + (i 1).val) % 128 = (i 1).val; omega)

/-- Degree 0's product a_0 · (x · w_0) read at an index is the specification's term. -/
theorem term_0 (x0 : S4096x128.Idx → EReal) (x1 : S4x4096x4096.Idx → EReal) (x2 : S4x128x128.Idx → EReal) (i : S4096x128.Idx) :
    val_main_v5 (F := Ideal) x0 x1 x2 i = Cheby.term x0 x1 x2 (⟨0, by decide⟩ : Fin 4) ⟨(i 0).val, (i 0).isLt⟩ ⟨(i 1).val, (i 1).isLt⟩ := by
  rw [val_main_v5_apply]
  unfold Cheby.term Cheby.supp
  refine Finset.sum_congr rfl fun k _ => ?_
  rw [val_main_v4_apply, val_main_v3_apply, val_main_v2_apply, adj_idx_0]
  refine congrArg (x1 _ * ·) (Finset.sum_congr rfl fun k' _ => ?_)
  rw [val_main_v1_apply, val_main_v0_apply, feat_idx_0, wt_idx_0]

/-- Degree 1: the adjacency slice, cast to a matrix, read at (row, n) is a[1, row, n]. -/
theorem adj_idx_1 (i : S4096x128.Idx) (k : Fin 4096) :
    idx_main_v9 (idx_main_v10 (lidx_main_v11 i k)) = ix3 (⟨1, by decide⟩ : Fin 4) (⟨(i 0).val, (i 0).isLt⟩ : Fin 4096) k :=
  funext fun a => Fin.ext (by
    have h0 : (i 0).val < 4096 := (i 0).isLt
    have hk : k.val < 4096 := k.isLt
    match a with
    | ⟨0, _⟩ => rfl
    | ⟨1, _⟩ => show ((i 0).val * 4096 + k.val) / 4096 % 4096 = (i 0).val; omega
    | ⟨2, _⟩ => show ((i 0).val * 4096 + k.val) % 4096 = k.val; omega)

/-- Degree 1: the features are read at (n, j). -/
theorem feat_idx_1 (i : S4096x128.Idx) (k : Fin 4096) (k' : Fin 128) :
    lidx_main_v8 (ridx_main_v11 i k) k' = ix2 k k' :=
  funext fun a => Fin.ext (by match a with | ⟨0, _⟩ => rfl | ⟨1, _⟩ => rfl)

/-- Degree 1: the weight slice, cast to a matrix, read at (j, column) is w[1, j, column]. -/
theorem wt_idx_1 (i : S4096x128.Idx) (k : Fin 4096) (k' : Fin 128) :
    idx_main_v6 (idx_main_v7 (ridx_main_v8 (ridx_main_v11 i k) k')) = ix3 (⟨1, by decide⟩ : Fin 4) k' (⟨(i 1).val, (i 1).isLt⟩ : Fin 128) :=
  funext fun a => Fin.ext (by
    have h1 : (i 1).val < 128 := (i 1).isLt
    have hk : k'.val < 128 := k'.isLt
    match a with
    | ⟨0, _⟩ => rfl
    | ⟨1, _⟩ => show (k'.val * 128 + (i 1).val) / 128 % 128 = k'.val; omega
    | ⟨2, _⟩ => show (k'.val * 128 + (i 1).val) % 128 = (i 1).val; omega)

/-- Degree 1's product a_1 · (x · w_1) read at an index is the specification's term. -/
theorem term_1 (x0 : S4096x128.Idx → EReal) (x1 : S4x4096x4096.Idx → EReal) (x2 : S4x128x128.Idx → EReal) (i : S4096x128.Idx) :
    val_main_v11 (F := Ideal) x0 x1 x2 i = Cheby.term x0 x1 x2 (⟨1, by decide⟩ : Fin 4) ⟨(i 0).val, (i 0).isLt⟩ ⟨(i 1).val, (i 1).isLt⟩ := by
  rw [val_main_v11_apply]
  unfold Cheby.term Cheby.supp
  refine Finset.sum_congr rfl fun k _ => ?_
  rw [val_main_v10_apply, val_main_v9_apply, val_main_v8_apply, adj_idx_1]
  refine congrArg (x1 _ * ·) (Finset.sum_congr rfl fun k' _ => ?_)
  rw [val_main_v7_apply, val_main_v6_apply, feat_idx_1, wt_idx_1]

/-- Degree 2: the adjacency slice, cast to a matrix, read at (row, n) is a[2, row, n]. -/
theorem adj_idx_2 (i : S4096x128.Idx) (k : Fin 4096) :
    idx_main_v15 (idx_main_v16 (lidx_main_v17 i k)) = ix3 (⟨2, by decide⟩ : Fin 4) (⟨(i 0).val, (i 0).isLt⟩ : Fin 4096) k :=
  funext fun a => Fin.ext (by
    have h0 : (i 0).val < 4096 := (i 0).isLt
    have hk : k.val < 4096 := k.isLt
    match a with
    | ⟨0, _⟩ => rfl
    | ⟨1, _⟩ => show ((i 0).val * 4096 + k.val) / 4096 % 4096 = (i 0).val; omega
    | ⟨2, _⟩ => show ((i 0).val * 4096 + k.val) % 4096 = k.val; omega)

/-- Degree 2: the features are read at (n, j). -/
theorem feat_idx_2 (i : S4096x128.Idx) (k : Fin 4096) (k' : Fin 128) :
    lidx_main_v14 (ridx_main_v17 i k) k' = ix2 k k' :=
  funext fun a => Fin.ext (by match a with | ⟨0, _⟩ => rfl | ⟨1, _⟩ => rfl)

/-- Degree 2: the weight slice, cast to a matrix, read at (j, column) is w[2, j, column]. -/
theorem wt_idx_2 (i : S4096x128.Idx) (k : Fin 4096) (k' : Fin 128) :
    idx_main_v12 (idx_main_v13 (ridx_main_v14 (ridx_main_v17 i k) k')) = ix3 (⟨2, by decide⟩ : Fin 4) k' (⟨(i 1).val, (i 1).isLt⟩ : Fin 128) :=
  funext fun a => Fin.ext (by
    have h1 : (i 1).val < 128 := (i 1).isLt
    have hk : k'.val < 128 := k'.isLt
    match a with
    | ⟨0, _⟩ => rfl
    | ⟨1, _⟩ => show (k'.val * 128 + (i 1).val) / 128 % 128 = k'.val; omega
    | ⟨2, _⟩ => show (k'.val * 128 + (i 1).val) % 128 = (i 1).val; omega)

/-- Degree 2's product a_2 · (x · w_2) read at an index is the specification's term. -/
theorem term_2 (x0 : S4096x128.Idx → EReal) (x1 : S4x4096x4096.Idx → EReal) (x2 : S4x128x128.Idx → EReal) (i : S4096x128.Idx) :
    val_main_v17 (F := Ideal) x0 x1 x2 i = Cheby.term x0 x1 x2 (⟨2, by decide⟩ : Fin 4) ⟨(i 0).val, (i 0).isLt⟩ ⟨(i 1).val, (i 1).isLt⟩ := by
  rw [val_main_v17_apply]
  unfold Cheby.term Cheby.supp
  refine Finset.sum_congr rfl fun k _ => ?_
  rw [val_main_v16_apply, val_main_v15_apply, val_main_v14_apply, adj_idx_2]
  refine congrArg (x1 _ * ·) (Finset.sum_congr rfl fun k' _ => ?_)
  rw [val_main_v13_apply, val_main_v12_apply, feat_idx_2, wt_idx_2]

/-- Degree 3: the adjacency slice, cast to a matrix, read at (row, n) is a[3, row, n]. -/
theorem adj_idx_3 (i : S4096x128.Idx) (k : Fin 4096) :
    idx_main_v21 (idx_main_v22 (lidx_main_v23 i k)) = ix3 (⟨3, by decide⟩ : Fin 4) (⟨(i 0).val, (i 0).isLt⟩ : Fin 4096) k :=
  funext fun a => Fin.ext (by
    have h0 : (i 0).val < 4096 := (i 0).isLt
    have hk : k.val < 4096 := k.isLt
    match a with
    | ⟨0, _⟩ => rfl
    | ⟨1, _⟩ => show ((i 0).val * 4096 + k.val) / 4096 % 4096 = (i 0).val; omega
    | ⟨2, _⟩ => show ((i 0).val * 4096 + k.val) % 4096 = k.val; omega)

/-- Degree 3: the features are read at (n, j). -/
theorem feat_idx_3 (i : S4096x128.Idx) (k : Fin 4096) (k' : Fin 128) :
    lidx_main_v20 (ridx_main_v23 i k) k' = ix2 k k' :=
  funext fun a => Fin.ext (by match a with | ⟨0, _⟩ => rfl | ⟨1, _⟩ => rfl)

/-- Degree 3: the weight slice, cast to a matrix, read at (j, column) is w[3, j, column]. -/
theorem wt_idx_3 (i : S4096x128.Idx) (k : Fin 4096) (k' : Fin 128) :
    idx_main_v18 (idx_main_v19 (ridx_main_v20 (ridx_main_v23 i k) k')) = ix3 (⟨3, by decide⟩ : Fin 4) k' (⟨(i 1).val, (i 1).isLt⟩ : Fin 128) :=
  funext fun a => Fin.ext (by
    have h1 : (i 1).val < 128 := (i 1).isLt
    have hk : k'.val < 128 := k'.isLt
    match a with
    | ⟨0, _⟩ => rfl
    | ⟨1, _⟩ => show (k'.val * 128 + (i 1).val) / 128 % 128 = k'.val; omega
    | ⟨2, _⟩ => show (k'.val * 128 + (i 1).val) % 128 = (i 1).val; omega)

/-- Degree 3's product a_3 · (x · w_3) read at an index is the specification's term. -/
theorem term_3 (x0 : S4096x128.Idx → EReal) (x1 : S4x4096x4096.Idx → EReal) (x2 : S4x128x128.Idx → EReal) (i : S4096x128.Idx) :
    val_main_v23 (F := Ideal) x0 x1 x2 i = Cheby.term x0 x1 x2 (⟨3, by decide⟩ : Fin 4) ⟨(i 0).val, (i 0).isLt⟩ ⟨(i 1).val, (i 1).isLt⟩ := by
  rw [val_main_v23_apply]
  unfold Cheby.term Cheby.supp
  refine Finset.sum_congr rfl fun k _ => ?_
  rw [val_main_v22_apply, val_main_v21_apply, val_main_v20_apply, adj_idx_3]
  refine congrArg (x1 _ * ·) (Finset.sum_congr rfl fun k' _ => ?_)
  rw [val_main_v19_apply, val_main_v18_apply, feat_idx_3, wt_idx_3]

/-- The bias, broadcast to a row then over the rows, read at (row, column) is b[column]. -/
theorem bias_idx (i : S4096x128.Idx) : idx_main_v27 (idx_main_v28 i) = ix1 (⟨(i 1).val, (i 1).isLt⟩ : Fin 128) :=
  funext fun a => Fin.ext (by match a with | ⟨0, _⟩ => rfl)

/-- The reference's result is the specification's function of the four arguments. -/
theorem result_eq (x0 : S4096x128.Idx → EReal) (x1 : S4x4096x4096.Idx → EReal) (x2 : S4x128x128.Idx → EReal) (x3 : S128.Idx → EReal) :
    val_main_v29 (F := Ideal) x0 x1 x2 x3 = Cheby.G x0 x1 x2 x3 := by
  funext i
  rw [val_main_v29_apply, val_main_v26_apply, val_main_v25_apply, val_main_v24_apply, term_0, term_1, term_2, term_3,
    val_main_v28_apply, val_main_v27_apply, bias_idx]
  rfl

end Cert.ReferenceIdeal.RefValue

end
-- ==== Proof.lean ====
/-
  The certificate of the Chebyshev graph convolution kernel against its reference.

  The kernel streams the adjacency stack in row tiles of 512 through a grid of 8 row tiles by 4 degrees. At the first
  row tile it computes the four supports S_k = x · w_k into a scratch, one per degree; at every point it adds
  (adjacency tile) · S_k to an output tile that starts, at degree 0, from the bias. The reference computes
  a_k · (x · w_k) for the four degrees, adds them in order, and adds the bias last.

  Over the extended reals both results are, at every (row, column),  b + Σ_k Σ_n a[k, row, n] · Σ_j x[n, j] · w[k, j, column]:
  the kernel's with the bias first, the reference's with the bias last, and addition is commutative and associative.
  No entry needs to be finite, so the precondition is not used.

  The three frames: for the two kernel programs the run of the pipeline over the body's triple and the proof
  data (the scratch tracked by an invariant, the output tile named point by point); for the reference its run with
  the result dropped. The idealization rewrote nothing, so `preserves` is trivial.
-/
import proofs.«156189_g32186484916413_cont_8to1_b_1688_12_alg».proof.Defs
import proofs.«156189_g32186484916413_cont_8to1_b_1688_12_alg».proof.Proof.Gen.Kernel
import proofs.«156189_g32186484916413_cont_8to1_b_1688_12_alg».proof.Proof.Gen.KernelIdeal
import proofs.«156189_g32186484916413_cont_8to1_b_1688_12_alg».proof.Proof.Gen.ReferenceIdeal
import proofs.«156189_g32186484916413_cont_8to1_b_1688_12_alg».proof.Proof.Gen.Pre_finite_inputs
import proofs.«156189_g32186484916413_cont_8to1_b_1688_12_alg».proof.Proof.Gen.ReferenceIdeal.Run
import proofs.«156189_g32186484916413_cont_8to1_b_1688_12_alg».proof.Proof.Gen.ReferenceIdeal.Read
import proofs.«156189_g32186484916413_cont_8to1_b_1688_12_alg».proof.Proof.KData
import proofs.«156189_g32186484916413_cont_8to1_b_1688_12_alg».proof.Proof.IData
import proofs.«156189_g32186484916413_cont_8to1_b_1688_12_alg».proof.Proof.IValue
import proofs.«156189_g32186484916413_cont_8to1_b_1688_12_alg».proof.Proof.RefRead
import proofs.«156189_g32186484916413_cont_8to1_b_1688_12_alg».proof.Proof.Spec
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at one function of arguments that agree: the kernel at the sum accumulated from the bias, the
    reference at the sum with the bias added last. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq,
    (hagree c).1, (hagree c).2.1, (hagree c).2.2.1, (hagree c).2.2.2]
  funext i
  exact (Cert.Cheby.biasFirst_eq_biasLast _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
